-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x14x14x2048 : Shape := ⟨4, ![64, 14, 14, 2048]⟩
abbrev S2048x64 : Shape := ⟨2, ![2048, 64]⟩
abbrev S64 : Shape := ⟨1, ![64]⟩
abbrev S64x16 : Shape := ⟨2, ![64, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S_ : Shape := ⟨0, ![]⟩

class Facts : Prop where
  bcast_S_S64x14x14x2048 : S_.BroadcastsInDim S64x14x14x2048 (![] : Fin 0 → Fin S64x14x14x2048.rank)
  reducesTo_S64x14x14x2048_S_d0_1_2_3 : S64x14x14x2048.ReducesTo [0, 1, 2, 3] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S8x1 .f32) (main_arg8 : FVec F S1 .f32) (main_v33 : IVec S_ 1) : IVec S_ 1 :=
  let main_v34 : FVec F S8x1 .f32 := Host.absf main_arg7
  let main_cst_12 : FVec F S_ .f32 := constant S_ .f32 0x7F800000#32
  let main_v35 : FVec F S8x1 .f32 := broadcastInDim S8x1 ![] bcast_S_S8x1 main_cst_12
  let main_v36 : IVec S8x1 1 := cmpf .olt main_v34 main_v35
  let main_c_13 : IVec S_ 1 := constantI S_ 1 1#1
  let main_v37 : IVec S_ 1 := (fun x v => Host.reduce IntOp.andi x v reducesTo_S8x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S16 .f32) (main_arg5 : FVec F S16x8 .f32) (main_arg6 : FVec F S8 .f32) (main_arg7 : FVec F S8x1 .f32) (main_arg8 : FVec F S1 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x8 .f32 := Host.absf main_arg5
  let main_cst_8 : FVec F S_ .f32 := constant S_ .f32 0x7F800000#32
  let main_v25 : FVec F S16x8 .f32 := broadcastInDim S16x8 ![] bcast_S_S16x8 main_cst_8
  let main_v26 : IVec S16x8 1 := cmpf .olt main_v24 main_v25
  let main_c_9 : IVec S_ 1 := constantI S_ 1 1#1
  let main_v27 : IVec S_ 1 := (fun x v => Host.reduce IntOp.andi x v reducesTo_S16x8_S_d0_1 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg7 main_arg8 main_v33

def fn {F : FTy → Type} [FloatOps F] (main_arg0 : FVec F S64x14x14x2048 .f32) (main_arg1 : FVec F S2048x64 .f32) (main_arg2 : FVec F S64 .f32) (main_arg3 : FVec F S64x16 .f32) (main_arg4 : FVec F S16 .f32) (main_arg5 : FVec F S16x8 .f32) (main_arg6 : FVec F S8 .f32) (main_arg7 : FVec F S8x1 .f32) (main_arg8 : FVec F S1 .f32) : IVec S_ 1 :=
  let main_v0 : FVec F S64x14x14x2048 .f32 := Host.absf main_arg0
  let main_cst : FVec F S_ .f32 := constant S_ .f32 0x7F800000#32
  let main_v1 : FVec F S64x14x14x2048 .f32 := broadcastInDim S64x14x14x2048 ![] bcast_S_S64x14x14x2048 main_cst
  let main_v2 : IVec S64x14x14x2048 1 := cmpf .olt main_v0 main_v1
  let main_c : IVec S_ 1 := constantI S_ 1 1#1
  let main_v3 : IVec S_ 1 := (fun x v => Host.reduce IntOp.andi x v reducesTo_S64x14x14x2048_S_d0_1_2_3 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg4 main_arg5 main_arg6 main_arg7 main_arg8 main_v13 main_v16
-- ==== Kernel.lean ====
abbrev S64x14x14x2048 : Shape := ⟨4, ![64, 14, 14, 2048]⟩
abbrev S2048x64 : Shape := ⟨2, ![2048, 64]⟩
abbrev S64 : Shape := ⟨1, ![64]⟩
abbrev S64x16 : Shape := ⟨2, ![64, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S64x196x2048 : Shape := ⟨3, ![64, 196, 2048]⟩
abbrev S1x64 : Shape := ⟨2, ![1, 64]⟩
abbrev S1x16 : Shape := ⟨2, ![1, 16]⟩
abbrev S1x8 : Shape := ⟨2, ![1, 8]⟩
abbrev S1x1 : Shape := ⟨2, ![1, 1]⟩
abbrev S64x1x2048 : Shape := ⟨3, ![64, 1, 2048]⟩
abbrev S4x196x2048 : Shape := ⟨3, ![4, 196, 2048]⟩
abbrev S4x1x2048 : Shape := ⟨3, ![4, 1, 2048]⟩
abbrev S1x196x2048 : Shape := ⟨3, ![1, 196, 2048]⟩
abbrev S196x2048 : Shape := ⟨2, ![196, 2048]⟩
abbrev S196x64 : Shape := ⟨2, ![196, 64]⟩
abbrev S196x16 : Shape := ⟨2, ![196, 16]⟩
abbrev S196x8 : Shape := ⟨2, ![196, 8]⟩
abbrev S196x1 : Shape := ⟨2, ![196, 1]⟩
abbrev S2048 : Shape := ⟨1, ![2048]⟩
abbrev S1x2048 : Shape := ⟨2, ![1, 2048]⟩
abbrev S1x1x2048 : Shape := ⟨3, ![1, 1, 2048]⟩
abbrev S64x2048 : Shape := ⟨2, ![64, 2048]⟩

abbrev nBuf : Space → Nat
  | .hbm => 20
  | .vmem => 12
  | .smem => 0
  | _ => 0

abbrev bufTy : (tb : Table) → Fin (tcTables nBuf tb) → BufTy
  | .hbm, ⟨0, _⟩ => ⟨S64x14x14x2048, .f32⟩
  | .hbm, ⟨1, _⟩ => ⟨S2048x64, .f32⟩
  | .hbm, ⟨2, _⟩ => ⟨S64, .f32⟩
  | .hbm, ⟨3, _⟩ => ⟨S64x16, .f32⟩
  | .hbm, ⟨4, _⟩ => ⟨S16, .f32⟩
  | .hbm, ⟨5, _⟩ => ⟨S16x8, .f32⟩
  | .hbm, ⟨6, _⟩ => ⟨S8, .f32⟩
  | .hbm, ⟨7, _⟩ => ⟨S8x1, .f32⟩
  | .hbm, ⟨8, _⟩ => ⟨S1, .f32⟩
  | .hbm, ⟨9, _⟩ => ⟨S64x196x2048, .f32⟩
  | .hbm, ⟨10, _⟩ => ⟨S2048x64, .bf16⟩
  | .hbm, ⟨11, _⟩ => ⟨S64x16, .bf16⟩
  | .hbm, ⟨12, _⟩ => ⟨S16x8, .bf16⟩
  | .hbm, ⟨13, _⟩ => ⟨S8x1, .bf16⟩
  | .hbm, ⟨14, _⟩ => ⟨S1x64, .f32⟩
  | .hbm, ⟨15, _⟩ => ⟨S1x16, .f32⟩
  | .hbm, ⟨16, _⟩ => ⟨S1x8, .f32⟩
  | .hbm, ⟨17, _⟩ => ⟨S1x1, .f32⟩
  | .hbm, ⟨18, _⟩ => ⟨S64x1x2048, .f32⟩
  | .hbm, ⟨19, _⟩ => ⟨S64x2048, .f32⟩
  | .local _ .vmem, ⟨0, _⟩ => ⟨S4x196x2048, .f32⟩
  | .local _ .vmem, ⟨1, _⟩ => ⟨S4x196x2048, .f32⟩
  | .local _ .vmem, ⟨2, _⟩ => ⟨S2048x64, .bf16⟩
  | .local _ .vmem, ⟨3, _⟩ => ⟨S1x64, .f32⟩
  | .local _ .vmem, ⟨4, _⟩ => ⟨S64x16, .bf16⟩
  | .local _ .vmem, ⟨5, _⟩ => ⟨S1x16, .f32⟩
  | .local _ .vmem, ⟨6, _⟩ => ⟨S16x8, .bf16⟩
  | .local _ .vmem, ⟨7, _⟩ => ⟨S1x8, .f32⟩
  | .local _ .vmem, ⟨8, _⟩ => ⟨S8x1, .bf16⟩
  | .local _ .vmem, ⟨9, _⟩ => ⟨S1x1, .f32⟩
  | .local _ .vmem, ⟨10, _⟩ => ⟨S4x1x2048, .f32⟩
  | .local _ .vmem, ⟨11, _⟩ => ⟨S4x1x2048, .f32⟩
  | _, _ => ⟨S64x14x14x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x196x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x8 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S64x14x14x2048_S64x196x2048 : S64x14x14x2048.ShapeCasts S64x196x2048
  bitsLt_bf16_f32 : FTy.bits .bf16 < FTy.bits .f32
  shapeCasts_S64_S1x64 : S64.ShapeCasts S1x64
  shapeCasts_S16_S1x16 : S16.ShapeCasts S1x16
  shapeCasts_S8_S1x8 : S8.ShapeCasts S1x8
  shapeCasts_S1_S1x1 : S1.ShapeCasts S1x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S16x8_S16x8_0_0 : ∀ a, (![0, 0] : Fin 2 → Nat) a + S16x8.size a ≤ S16x8.size a
  h_S16x8 : 0 < S16x8.numel
  shapeCasts_S16x8_S16x8 : S16x8.ShapeCasts S16x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4x196x2048_S1x196x2048_0_0_0 : ∀ a, (![0, 0, 0] : Fin 3 → Nat) a + S1x196x2048.size a ≤ S4x196x2048.size a
  h_S1x196x2048 : 0 < S1x196x2048.numel
  shapeCasts_S1x196x2048_S196x2048 : S1x196x2048.ShapeCasts S196x2048
  broadcasts_S1x64_S196x64 : S1x64.Broadcasts S196x64
  broadcasts_S1x16_S196x16 : S1x16.Broadcasts S196x16
  broadcasts_S1x8_S196x8 : S1x8.Broadcasts S196x8
  broadcasts_S1x1_S196x1 : S1x1.Broadcasts S196x1
  broadcasts_S196x1_S196x2048 : S196x1.Broadcasts S196x2048
  reduces_S196x2048_S2048 : S196x2048.Reduces [0] S2048
  shapeCasts_S2048_S1x2048 : S2048.ShapeCasts S1x2048
  reduces_S196x1_S1 : S196x1.Reduces [0] S1
  broadcasts_S1x1_S1x2048 : S1x1.Broadcasts S1x2048
  inb_S4x1x2048_S1x1x2048_0_0_0 : ∀ a, (![0, 0, 0] : Fin 3 → Nat) a + S1x1x2048.size a ≤ S4x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  inb_S4x196x2048_S1x196x2048_1_0_0 : ∀ a, (![1, 0, 0] : Fin 3 → Nat) a + S1x196x2048.size a ≤ S4x196x2048.size a
  inb_S4x1x2048_S1x1x2048_1_0_0 : ∀ a, (![1, 0, 0] : Fin 3 → Nat) a + S1x1x2048.size a ≤ S4x1x2048.size a
  inb_S4x196x2048_S1x196x2048_2_0_0 : ∀ a, (![2, 0, 0] : Fin 3 → Nat) a + S1x196x2048.size a ≤ S4x196x2048.size a
  inb_S4x1x2048_S1x1x2048_2_0_0 : ∀ a, (![2, 0, 0] : Fin 3 → Nat) a + S1x1x2048.size a ≤ S4x1x2048.size a
  inb_S4x196x2048_S1x196x2048_3_0_0 : ∀ a, (![3, 0, 0] : Fin 3 → Nat) a + S1x196x2048.size a ≤ S4x196x2048.size a
  inb_S4x1x2048_S1x1x2048_3_0_0 : ∀ a, (![3, 0, 0] : Fin 3 → Nat) a + S1x1x2048.size a ≤ S4x1x2048.size a
  shapeCasts_S64x1x2048_S64x2048 : S64x1x2048.ShapeCasts S64x2048
  dot_S196x2048_S2048x64_S196x64_1_0_0_1_n_n_wf : DotDims.WF S196x2048 S2048x64 S196x64 [1] [0] [0] [1] [] []
  dot_S196x64_S64x16_S196x16_1_0_0_1_n_n_wf : DotDims.WF S196x64 S64x16 S196x16 [1] [0] [0] [1] [] []
  dot_S196x16_S16x8_S196x8_1_0_0_1_n_n_wf : DotDims.WF S196x16 S16x8 S196x8 [1] [0] [0] [1] [] []
  dot_S196x8_S8x1_S196x1_1_0_0_1_n_n_wf : DotDims.WF S196x8 S8x1 S196x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x196x2048.size a ≤ S64x196x2048.size a
  hwx0_0 : ∀ i : grid0.Coords, EltTy.bits .f32 = 32 ∨ (Rect.block (s := S64x196x2048) S4x196x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S2048x64.size a
  hwx0_1 : ∀ i : grid0.Coords, EltTy.bits .bf16 = 32 ∨ (Rect.block (s := S2048x64) S2048x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .bf16 = 32 ∨ (Rect.block (s := S64x16) S64x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x8.size a ≤ S16x8.size a
  hwx0_5 : ∀ i : grid0.Coords, EltTy.bits .bf16 = 32 ∨ (Rect.block (s := S16x8) S16x8.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8.size a ≤ S1x8.size a
  hwx0_6 : ∀ i : grid0.Coords, EltTy.bits .f32 = 32 ∨ (Rect.block (s := S1x8) S1x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x1.size a ≤ S8x1.size a
  hwx0_7 : ∀ i : grid0.Coords, EltTy.bits .bf16 = 32 ∨ (Rect.block (s := S8x1) S8x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4x1x2048.size a ≤ S64x1x2048.size a
  hwx0_9 : ∀ i : grid0.Coords, EltTy.bits .f32 = 32 ∨ (Rect.block (s := S64x1x2048) S4x1x2048.size (cc0_transform_9 i) (hinb0_9 i)).WholeWords (EltTy.packing .f32)

variable [Facts₀]

def dot_S196x2048_S2048x64_S196x64_1_0_0_1_n_n : DotDims S196x2048 S2048x64 S196x64 where
  lhsContracting := [1]
  rhsContracting := [0]
  lhsNonContracting := [0]
  rhsNonContracting := [1]
  lhsBatch := []
  rhsBatch := []
  wf := dot_S196x2048_S2048x64_S196x64_1_0_0_1_n_n_wf
def dot_S196x64_S64x16_S196x16_1_0_0_1_n_n : DotDims S196x64 S64x16 S196x16 where
  lhsContracting := [1]
  rhsContracting := [0]
  lhsNonContracting := [0]
  rhsNonContracting := [1]
  lhsBatch := []
  rhsBatch := []
  wf := dot_S196x64_S64x16_S196x16_1_0_0_1_n_n_wf
def dot_S196x16_S16x8_S196x8_1_0_0_1_n_n : DotDims S196x16 S16x8 S196x8 where
  lhsContracting := [1]
  rhsContracting := [0]
  lhsNonContracting := [0]
  rhsNonContracting := [1]
  lhsBatch := []
  rhsBatch := []
  wf := dot_S196x16_S16x8_S196x8_1_0_0_1_n_n_wf
def dot_S196x8_S8x1_S196x1_1_0_0_1_n_n : DotDims S196x8 S8x1 S196x1 where
  lhsContracting := [1]
  rhsContracting := [0]
  lhsNonContracting := [0]
  rhsNonContracting := [1]
  lhsBatch := []
  rhsBatch := []
  wf := dot_S196x8_S8x1_S196x1_1_0_0_1_n_n_wf

abbrev win0_0 : Pipeline.Window sig grid0 :=
  Pipeline.Window.ofSpec (Memref.whole main_v0) S4x196x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S16x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S8x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S4x1x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S64x14x14x2048 : Shape := ⟨4, ![64, 14, 14, 2048]⟩
abbrev S2048x64 : Shape := ⟨2, ![2048, 64]⟩
abbrev S64 : Shape := ⟨1, ![64]⟩
abbrev S64x16 : Shape := ⟨2, ![64, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S64x14x14x64 : Shape := ⟨4, ![64, 14, 14, 64]⟩
abbrev S1x1x1x64 : Shape := ⟨4, ![1, 1, 1, 64]⟩
abbrev S_ : Shape := ⟨0, ![]⟩
abbrev S64x14x14x16 : Shape := ⟨4, ![64, 14, 14, 16]⟩
abbrev S1x1x1x16 : Shape := ⟨4, ![1, 1, 1, 16]⟩
abbrev S64x14x14x8 : Shape := ⟨4, ![64, 14, 14, 8]⟩
abbrev S1x1x1x8 : Shape := ⟨4, ![1, 1, 1, 8]⟩
abbrev S64x14x14x1 : Shape := ⟨4, ![64, 14, 14, 1]⟩
abbrev S1x1x1x1 : Shape := ⟨4, ![1, 1, 1, 1]⟩
abbrev S64x2048 : Shape := ⟨2, ![64, 2048]⟩
abbrev S64x1 : Shape := ⟨2, ![64, 1]⟩

abbrev nBuf : Space → Nat
  | .hbm => 56
  | .vmem => 0
  | .smem => 0
  | _ => 0

abbrev bufTy : (tb : Table) → Fin (tcTables nBuf tb) → BufTy
  | .hbm, ⟨0, _⟩ => ⟨S64x14x14x2048, .f32⟩
  | .hbm, ⟨1, _⟩ => ⟨S2048x64, .f32⟩
  | .hbm, ⟨2, _⟩ => ⟨S64, .f32⟩
  | .hbm, ⟨3, _⟩ => ⟨S64x16, .f32⟩
  | .hbm, ⟨4, _⟩ => ⟨S16, .f32⟩
  | .hbm, ⟨5, _⟩ => ⟨S16x8, .f32⟩
  | .hbm, ⟨6, _⟩ => ⟨S8, .f32⟩
  | .hbm, ⟨7, _⟩ => ⟨S8x1, .f32⟩
  | .hbm, ⟨8, _⟩ => ⟨S1, .f32⟩
  | .hbm, ⟨9, _⟩ => ⟨S64x14x14x64, .f32⟩
  | .hbm, ⟨10, _⟩ => ⟨S1x1x1x64, .f32⟩
  | .hbm, ⟨11, _⟩ => ⟨S64x14x14x64, .f32⟩
  | .hbm, ⟨12, _⟩ => ⟨S64x14x14x64, .f32⟩
  | .hbm, ⟨13, _⟩ => ⟨S_, .f32⟩
  | .hbm, ⟨14, _⟩ => ⟨S64x14x14x64, .f32⟩
  | .hbm, ⟨15, _⟩ => ⟨S64x14x14x64, .f32⟩
  | .hbm, ⟨16, _⟩ => ⟨S64x14x14x16, .f32⟩
  | .hbm, ⟨17, _⟩ => ⟨S1x1x1x16, .f32⟩
  | .hbm, ⟨18, _⟩ => ⟨S64x14x14x16, .f32⟩
  | .hbm, ⟨19, _⟩ => ⟨S64x14x14x16, .f32⟩
  | .hbm, ⟨20, _⟩ => ⟨S_, .f32⟩
  | .hbm, ⟨21, _⟩ => ⟨S64x14x14x16, .f32⟩
  | .hbm, ⟨22, _⟩ => ⟨S64x14x14x16, .f32⟩
  | .hbm, ⟨23, _⟩ => ⟨S64x14x14x8, .f32⟩
  | .hbm, ⟨24, _⟩ => ⟨S1x1x1x8, .f32⟩
  | .hbm, ⟨25, _⟩ => ⟨S64x14x14x8, .f32⟩
  | .hbm, ⟨26, _⟩ => ⟨S64x14x14x8, .f32⟩
  | .hbm, ⟨27, _⟩ => ⟨S_, .f32⟩
  | .hbm, ⟨28, _⟩ => ⟨S64x14x14x8, .f32⟩
  | .hbm, ⟨29, _⟩ => ⟨S64x14x14x8, .f32⟩
  | .hbm, ⟨30, _⟩ => ⟨S64x14x14x1, .f32⟩
  | .hbm, ⟨31, _⟩ => ⟨S1x1x1x1, .f32⟩
  | .hbm, ⟨32, _⟩ => ⟨S64x14x14x1, .f32⟩
  | .hbm, ⟨33, _⟩ => ⟨S64x14x14x1, .f32⟩
  | .hbm, ⟨34, _⟩ => ⟨S64x14x14x1, .f32⟩
  | .hbm, ⟨35, _⟩ => ⟨S64x14x14x1, .f32⟩
  | .hbm, ⟨36, _⟩ => ⟨S_, .f32⟩
  | .hbm, ⟨37, _⟩ => ⟨S64x14x14x1, .f32⟩
  | .hbm, ⟨38, _⟩ => ⟨S64x14x14x1, .f32⟩
  | .hbm, ⟨39, _⟩ => ⟨S_, .f32⟩
  | .hbm, ⟨40, _⟩ => ⟨S64x14x14x1, .f32⟩
  | .hbm, ⟨41, _⟩ => ⟨S64x14x14x1, .f32⟩
  | .hbm, ⟨42, _⟩ => ⟨S64x14x14x2048, .f32⟩
  | .hbm, ⟨43, _⟩ => ⟨S64x14x14x2048, .f32⟩
  | .hbm, ⟨44, _⟩ => ⟨S_, .f32⟩
  | .hbm, ⟨45, _⟩ => ⟨S64x2048, .f32⟩
  | .hbm, ⟨46, _⟩ => ⟨S_, .f32⟩
  | .hbm, ⟨47, _⟩ => ⟨S64x2048, .f32⟩
  | .hbm, ⟨48, _⟩ => ⟨S64x2048, .f32⟩
  | .hbm, ⟨49, _⟩ => ⟨S_, .f32⟩
  | .hbm, ⟨50, _⟩ => ⟨S64x1, .f32⟩
  | .hbm, ⟨51, _⟩ => ⟨S_, .f32⟩
  | .hbm, ⟨52, _⟩ => ⟨S64x1, .f32⟩
  | .hbm, ⟨53, _⟩ => ⟨S64x1, .f32⟩
  | .hbm, ⟨54, _⟩ => ⟨S64x2048, .f32⟩
  | .hbm, ⟨55, _⟩ => ⟨S64x2048, .f32⟩
  | _, _ => ⟨S64x14x14x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call2_cst : Ref sig .tc := ⟨.hbm, 27, rfl⟩
abbrev main_call2_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_cst_0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_1 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]

class Facts₀ : Prop where
  bcast_S64_S1x1x1x64_3 : S64.BroadcastsInDim S1x1x1x64 (![3] : Fin 1 → Fin S1x1x1x64.rank)
  bcast_S1x1x1x64_S64x14x14x64_0_1_2_3 : S1x1x1x64.BroadcastsInDim S64x14x14x64 (![0, 1, 2, 3] : Fin 4 → Fin S64x14x14x64.rank)
  bcast_S_S64x14x14x64 : S_.BroadcastsInDim S64x14x14x64 (![] : Fin 0 → Fin S64x14x14x64.rank)
  bcast_S16_S1x1x1x16_3 : S16.BroadcastsInDim S1x1x1x16 (![3] : Fin 1 → Fin S1x1x1x16.rank)
  bcast_S1x1x1x16_S64x14x14x16_0_1_2_3 : S1x1x1x16.BroadcastsInDim S64x14x14x16 (![0, 1, 2, 3] : Fin 4 → Fin S64x14x14x16.rank)
  bcast_S_S64x14x14x16 : S_.BroadcastsInDim S64x14x14x16 (![] : Fin 0 → Fin S64x14x14x16.rank)
  bcast_S8_S1x1x1x8_3 : S8.BroadcastsInDim S1x1x1x8 (![3] : Fin 1 → Fin S1x1x1x8.rank)
  bcast_S1x1x1x8_S64x14x14x8_0_1_2_3 : S1x1x1x8.BroadcastsInDim S64x14x14x8 (![0, 1, 2, 3] : Fin 4 → Fin S64x14x14x8.rank)
  bcast_S_S64x14x14x8 : S_.BroadcastsInDim S64x14x14x8 (![] : Fin 0 → Fin S64x14x14x8.rank)
  bcast_S1_S1x1x1x1_3 : S1.BroadcastsInDim S1x1x1x1 (![3] : Fin 1 → Fin S1x1x1x1.rank)
  bcast_S1x1x1x1_S64x14x14x1_0_1_2_3 : S1x1x1x1.BroadcastsInDim S64x14x14x1 (![0, 1, 2, 3] : Fin 4 → Fin S64x14x14x1.rank)
  bcast_S_S64x14x14x1 : S_.BroadcastsInDim S64x14x14x1 (![] : Fin 0 → Fin S64x14x14x1.rank)
  bcast_S64x14x14x1_S64x14x14x2048_0_1_2_3 : S64x14x14x1.BroadcastsInDim S64x14x14x2048 (![0, 1, 2, 3] : Fin 4 → Fin S64x14x14x2048.rank)
  reducesTo_S64x14x14x2048_S64x2048_d1_2 : S64x14x14x2048.ReducesTo [1, 2] S64x2048
  h_S_ : 0 < S_.numel
  bcast_S_S64x2048 : S_.BroadcastsInDim S64x2048 (![] : Fin 0 → Fin S64x2048.rank)
  reducesTo_S64x14x14x1_S64x1_d1_2 : S64x14x14x1.ReducesTo [1, 2] S64x1
  bcast_S_S64x1 : S_.BroadcastsInDim S64x1 (![] : Fin 0 → Fin S64x1.rank)
  bcast_S64x1_S64x2048_0_1 : S64x1.BroadcastsInDim S64x2048 (![0, 1] : Fin 2 → Fin S64x2048.rank)
  dot_S64x14x14x2048_S2048x64_S64x14x14x64_3_0_012_1_n_n_wf : DotDims.WF S64x14x14x2048 S2048x64 S64x14x14x64 [3] [0] [0, 1, 2] [1] [] []
  dot_S64x14x14x64_S64x16_S64x14x14x16_3_0_012_1_n_n_wf : DotDims.WF S64x14x14x64 S64x16 S64x14x14x16 [3] [0] [0, 1, 2] [1] [] []
  dot_S64x14x14x16_S16x8_S64x14x14x8_3_0_012_1_n_n_wf : DotDims.WF S64x14x14x16 S16x8 S64x14x14x8 [3] [0] [0, 1, 2] [1] [] []
  dot_S64x14x14x8_S8x1_S64x14x14x1_3_0_012_1_n_n_wf : DotDims.WF S64x14x14x8 S8x1 S64x14x14x1 [3] [0] [0, 1, 2] [1] [] []

variable [Facts₀]

def dot_S64x14x14x2048_S2048x64_S64x14x14x64_3_0_012_1_n_n : DotDims S64x14x14x2048 S2048x64 S64x14x14x64 where
  lhsContracting := [3]
  rhsContracting := [0]
  lhsNonContracting := [0, 1, 2]
  rhsNonContracting := [1]
  lhsBatch := []
  rhsBatch := []
  wf := dot_S64x14x14x2048_S2048x64_S64x14x14x64_3_0_012_1_n_n_wf
def dot_S64x14x14x64_S64x16_S64x14x14x16_3_0_012_1_n_n : DotDims S64x14x14x64 S64x16 S64x14x14x16 where
  lhsContracting := [3]
  rhsContracting := [0]
  lhsNonContracting := [0, 1, 2]
  rhsNonContracting := [1]
  lhsBatch := []
  rhsBatch := []
  wf := dot_S64x14x14x64_S64x16_S64x14x14x16_3_0_012_1_n_n_wf
def dot_S64x14x14x16_S16x8_S64x14x14x8_3_0_012_1_n_n : DotDims S64x14x14x16 S16x8 S64x14x14x8 where
  lhsContracting := [3]
  rhsContracting := [0]
  lhsNonContracting := [0, 1, 2]
  rhsNonContracting := [1]
  lhsBatch := []
  rhsBatch := []
  wf := dot_S64x14x14x16_S16x8_S64x14x14x8_3_0_012_1_n_n_wf
def dot_S64x14x14x8_S8x1_S64x14x14x1_3_0_012_1_n_n : DotDims S64x14x14x8 S8x1 S64x14x14x1 where
  lhsContracting := [3]
  rhsContracting := [0]
  lhsNonContracting := [0, 1, 2]
  rhsNonContracting := [1]
  lhsBatch := []
  rhsBatch := []
  wf := dot_S64x14x14x8_S8x1_S64x14x14x1_3_0_012_1_n_n_wf

class Facts : Prop extends Facts₀ where

variable [Facts]
-- ==== Proof.KernelImage.lean ====
/-
  One image of the kernel's body, as a function of the loaded blocks.

  At a grid point the body handles four images one after the other, each by the same sequence of vector operations on
  the image's 196 × 2048 block of pixels and the eight weight and bias blocks: three hidden layers (a matrix product of
  the narrowed activations with the weights into a zero accumulator, plus the bias row broadcast down the pixels, then the
  maximum with zero), the last layer and the logistic (the 196 × 1 column of gates), the gates broadcast across the
  channels times the pixels, the sum of that product down the pixels and the sum of the gates down the pixels, and the
  quotient of the two. `image` is that sequence, once. The body's four stored values are cut out of the printed
  sequence at four different places; each of them is `image` of the image's pixels (`piece0_eq` … `piece3_eq`), by
  unfolding.
-/
import proofs.«123492_j27625229648173_2_alg».proof.Proof.Gen.KernelIdeal.Skeleton

noncomputable section

namespace Cert.AttnPool.Image

open Cert.KernelIdeal Cert.KernelIdeal.Gen Idealize.ShloMosaic Idealize.SL.Sem

variable {F : FTy → Type} [FloatOps F]

/-- The first hidden layer of every pixel of an image: 196 × 2048 pixels to 196 × 64. -/
def layer1 (w1 : FVec F S2048x64 .bf16) (b1 : FVec F S1x64 .f32) (xs : FVec F S196x2048 .f32) : FVec F S196x64 .f32 :=
  maximumf (addf (matmul dot_S196x2048_S2048x64_S196x64_1_0_0_1_n_n none (truncf .bf16 xs bitsLt_bf16_f32) w1 (constant S196x64 .f32 0x00000000#32))
    (broadcastTo S196x64 b1 broadcasts_S1x64_S196x64)) (broadcast S196x64 (Scalar.ofBits .f32 0x00000000#32))

/-- The second: 196 × 64 to 196 × 16. -/
def layer2 (w2 : FVec F S64x16 .bf16) (b2 : FVec F S1x16 .f32) (h : FVec F S196x64 .f32) : FVec F S196x16 .f32 :=
  maximumf (addf (matmul dot_S196x64_S64x16_S196x16_1_0_0_1_n_n none (truncf .bf16 h bitsLt_bf16_f32) w2 (constant S196x16 .f32 0x00000000#32))
    (broadcastTo S196x16 b2 broadcasts_S1x16_S196x16)) (broadcast S196x16 (Scalar.ofBits .f32 0x00000000#32))

/-- The third: 196 × 16 to 196 × 8. -/
def layer3 (w3 : FVec F S16x8 .bf16) (b3 : FVec F S1x8 .f32) (h : FVec F S196x16 .f32) : FVec F S196x8 .f32 :=
  maximumf (addf (matmul dot_S196x16_S16x8_S196x8_1_0_0_1_n_n none (truncf .bf16 h bitsLt_bf16_f32) w3 (constant S196x8 .f32 0x00000000#32))
    (broadcastTo S196x8 b3 broadcasts_S1x8_S196x8)) (broadcast S196x8 (Scalar.ofBits .f32 0x00000000#32))

/-- The last layer and the logistic: the column of the 196 pixels' gates. -/
def gates (w4 : FVec F S8x1 .bf16) (b4 : FVec F S1x1 .f32) (h : FVec F S196x8 .f32) : FVec F S196x1 .f32 :=
  logistic (addf (matmul dot_S196x8_S8x1_S196x1_1_0_0_1_n_n none (truncf .bf16 h bitsLt_bf16_f32) w4 (constant S196x1 .f32 0x00000000#32))
    (broadcastTo S196x1 b4 broadcasts_S1x1_S196x1))

/-- The gate-weighted sum of the pixels down the 196 rows, over the sum of the gates: one row of 2048 channels. -/
def weighted (a : FVec F S196x1 .f32) (xs : FVec F S196x2048 .f32) : FVec F S1x1x2048 .f32 :=
  shapeCast S1x1x2048
    (divf
      (shapeCast S1x2048 (multiReduction .add [0] S2048 (mulf (broadcastTo S196x2048 a broadcasts_S196x1_S196x2048) xs) 0x00000000#32 reduces_S196x2048_S2048 (.inl rfl) rfl) shapeCasts_S2048_S1x2048)
      (broadcastTo S1x2048 (shapeCast S1x1 (multiReduction .add [0] S1 a 0x00000000#32 reduces_S196x1_S1 (.inl rfl) rfl) shapeCasts_S1_S1x1) broadcasts_S1x1_S1x2048))
    shapeCasts_S1x2048_S1x1x2048

/-- One image: its pixels' gates, and the pooled row. -/
def image (w1 : FVec F S2048x64 .bf16) (b1 : FVec F S1x64 .f32) (w2 : FVec F S64x16 .bf16) (b2 : FVec F S1x16 .f32)
    (w3 : FVec F S16x8 .bf16) (b3 : FVec F S1x8 .f32) (w4 : FVec F S8x1 .bf16) (b4 : FVec F S1x1 .f32)
    (xs : FVec F S196x2048 .f32) : FVec F S1x1x2048 .f32 :=
  weighted (gates w4 b4 (layer3 w3 b3 (layer2 w2 b2 (layer1 w1 b1 xs)))) xs

/-- An image's pixels: its 1 × 196 × 2048 slab of the block with the unit axis dropped. -/
abbrev pixels (v : Vec F S1x196x2048 .f32) : FVec F S196x2048 .f32 :=
  shapeCast S196x2048 v shapeCasts_S1x196x2048_S196x2048

/-! ## The four stored values are `image` -/

theorem piece0_eq (v0 : Vec F S2048x64 .bf16) (v2 : Vec F S1x64 .f32) (v4 : Vec F S64x16 .bf16) (v6 : Vec F S1x16 .f32)
    (v8 : Vec F S16x8 .bf16) (v10 : Vec F S1x8 .f32) (v12 : Vec F S8x1 .bf16) (v14 : Vec F S1x1 .f32) (v16 : Vec F S1x196x2048 .f32) :
    k0_pay11 (k0_pay7 v12) (k0_pay8 v14) (k0_pay9 v16) (k0_pay10 v0 v2 v4 v6 v8 v10 v16) (Scalar.ofBits .f32 0x00000000#32)
      = image (k0_pay1 v0) (k0_pay2 v2) (k0_pay3 v4) (k0_pay4 v6) (k0_pay5 v8) (k0_pay6 v10) (k0_pay7 v12) (k0_pay8 v14) (pixels v16) := rfl

theorem piece1_eq (v1 : FVec F S2048x64 .bf16) (v3 : FVec F S1x64 .f32) (v5 : FVec F S64x16 .bf16) (v7 : FVec F S1x16 .f32)
    (v9 : FVec F S16x8 .bf16) (v11 : FVec F S1x8 .f32) (v13 : FVec F S8x1 .bf16) (v15 : FVec F S1x1 .f32) (v52 : Vec F S1x196x2048 .f32) :
    k0_pay14 (k0_pay12 v52) (k0_pay13 v1 v3 v5 v7 v9 v11 v13 v15 v52) = image v1 v3 v5 v7 v9 v11 v13 v15 (pixels v52) := rfl

theorem piece2_eq (v1 : FVec F S2048x64 .bf16) (v3 : FVec F S1x64 .f32) (v5 : FVec F S64x16 .bf16) (v7 : FVec F S1x16 .f32)
    (v9 : FVec F S16x8 .bf16) (v11 : FVec F S1x8 .f32) (v13 : FVec F S8x1 .bf16) (v15 : FVec F S1x1 .f32) (v88 : Vec F S1x196x2048 .f32) :
    k0_pay19 (k0_pay17 v1 v3 v5 v7 v9 v11 v13 v15 v88) (k0_pay18 v1 v3 v5 v7 v9 v11 v13 v15 v88) = image v1 v3 v5 v7 v9 v11 v13 v15 (pixels v88) := rfl

theorem piece3_eq (v1 : FVec F S2048x64 .bf16) (v3 : FVec F S1x64 .f32) (v5 : FVec F S64x16 .bf16) (v7 : FVec F S1x16 .f32)
    (v9 : FVec F S16x8 .bf16) (v11 : FVec F S1x8 .f32) (v13 : FVec F S8x1 .bf16) (v15 : FVec F S1x1 .f32) (v124 : Vec F S1x196x2048 .f32) :
    k0_pay20 v1 v3 v5 v7 v9 v11 v13 v15 v124 = image v1 v3 v5 v7 v9 v11 v13 v15 (pixels v124) := rfl

end Cert.AttnPool.Image

end
-- ==== Proof.LibWindow14.lean ====
/-
  A 14 × 14 window of pixels as 196 row-major positions, for a channels-last array [a, 14, 14, c] beside its
  flattened form [a, 196, c]:

  * position `p` of 196 is the pixel (p / 14, p % 14) (`hi14`, `lo14`);
  * [a, 14, 14, c] reshaped to [a, 196, c]: entry (i, p, k) is entry (i, p / 14, p % 14, k) (`flatten_apply`);
  * [a, 1, c] reshaped to [a, c]: entry (i, k) is entry (i, 0, k) (`squeeze_mid_apply`);
  * the host's sum over the two window axes of [a, 14, 14, c], at (i, k): the initial value plus the sum over the 196
    positions (`hostSumWindow_apply`) — the indices that drop to (i, k) are exactly the (i, p / 14, p % 14, k).

  The sum at the ideal values; the layout facts for any element type.
-/
import Idealize.ShloMosaic.PureOps.Ideal.Laws
import Idealize.ShloMosaic.Lib.Pipeline.Value
import Idealize.ShloMosaic.Lib.ValueIdx

noncomputable section

open scoped BigOperators

namespace Idealize.ShloMosaic.Window14

open Idealize.ShloMosaic Idealize.ShloMosaic.ValueIdx

/-- The row of position `p` in the 14 × 14 window. -/
abbrev hi14 (p : Fin 196) : Fin 14 := ⟨p.val / 14, by have := p.isLt; omega⟩
/-- The column of position `p` in the 14 × 14 window. -/
abbrev lo14 (p : Fin 196) : Fin 14 := ⟨p.val % 14, Nat.mod_lt _ (by decide)⟩

section Layout
variable {α : Type}

/-- [a, 14, 14, c] reshaped to [a, 196, c]: entry (i, p, k) is entry (i, p / 14, p % 14, k). -/
theorem flatten_apply {a c : Nat} (X : (⟨4, ![a, 14, 14, c]⟩ : Shape).Idx → α)
    (h : (⟨4, ![a, 14, 14, c]⟩ : Shape).ShapeCasts ⟨3, ![a, 196, c]⟩) (i : Fin a) (p : Fin 196) (k : Fin c) :
    shapeCast ⟨3, ![a, 196, c]⟩ X h (ix3 i p k) = X (ix4 i (hi14 p) (lo14 p) k) :=
  shapeCast_apply X h (ix3 i p k) (ix4 i (hi14 p) (lo14 p) k) (by
    rw [Shape.rowMajor_val_three, Shape.rowMajor_val_four]
    show ((i.val * 14 + p.val / 14) * 14 + p.val % 14) * c + k.val = (i.val * 196 + p.val) * c + k.val
    have e : (i.val * 14 + p.val / 14) * 14 + p.val % 14 = i.val * 196 + p.val := by omega
    rw [e])

/-- [a, 1, c] reshaped to [a, c]: entry (i, k) is entry (i, 0, k). -/
theorem squeeze_mid_apply {a c : Nat} (X : (⟨3, ![a, 1, c]⟩ : Shape).Idx → α)
    (h : (⟨3, ![a, 1, c]⟩ : Shape).ShapeCasts ⟨2, ![a, c]⟩) (i : Fin a) (k : Fin c) :
    shapeCast ⟨2, ![a, c]⟩ X h (ix2 i k) = X (ix3 i (0 : Fin 1) k) :=
  shapeCast_apply X h (ix2 i k) (ix3 i (0 : Fin 1) k) (by
    rw [Shape.rowMajor_val_three, Shape.rowMajor_val_two]
    show (i.val * 1 + 0) * c + k.val = i.val * c + k.val
    rw [Nat.mul_one, Nat.add_zero])

end Layout

/-- The host's sum over the two window axes of a [a, 14, 14, c] array, at (i, k): the initial value plus the sum over
    the 196 row-major positions of the window. -/
theorem hostSumWindow_apply {a c : Nat} (h' : (⟨4, ![a, 14, 14, c]⟩ : Shape).ReducesTo [1, 2] ⟨2, ![a, c]⟩)
    (X : (⟨4, ![a, 14, 14, c]⟩ : Shape).Idx → EReal) (init : EReal) (i : Fin a) (k : Fin c) :
    Ideal.hostReduceAdd h' X init (ix2 i k) = init + ∑ p : Fin 196, X (ix4 i (hi14 p) (lo14 p) k) := by
  unfold Ideal.hostReduceAdd
  refine congrArg (init + ·) (Eq.symm ?_)
  refine Finset.sum_bij (fun p _ => ix4 i (hi14 p) (lo14 p) k) ?_ ?_ ?_ ?_
  · intro p _
    rw [Finset.mem_filter]
    refine ⟨Finset.mem_univ _, funext fun d => Fin.ext ?_⟩
    match d with
    | ⟨0, _⟩ => rfl
    | ⟨1, _⟩ => rfl
  · intro p _ q _ e
    have e1 : p.val / 14 = q.val / 14 := congrArg (fun x : (⟨4, ![a, 14, 14, c]⟩ : Shape).Idx => (x 1).val) e
    have e2 : p.val % 14 = q.val % 14 := congrArg (fun x : (⟨4, ![a, 14, 14, c]⟩ : Shape).Idx => (x 2).val) e
    exact Fin.ext (by omega)
  · intro x hx
    rw [Finset.mem_filter] at hx
    have h0 : (x 0).val = i.val := congrArg (fun y : (⟨2, ![a, c]⟩ : Shape).Idx => (y 0).val) hx.2
    have h3 : (x 3).val = k.val := congrArg (fun y : (⟨2, ![a, c]⟩ : Shape).Idx => (y 1).val) hx.2
    have h1 : (x 1).val < 14 := (x 1).isLt
    have h2 : (x 2).val < 14 := (x 2).isLt
    refine ⟨⟨14 * (x 1).val + (x 2).val, by omega⟩, Finset.mem_univ _, funext fun d => Fin.ext ?_⟩
    match d with
    | ⟨0, _⟩ => exact h0.symm
    | ⟨1, _⟩ => show (14 * (x 1).val + (x 2).val) / 14 = (x 1).val; omega
    | ⟨2, _⟩ => show (14 * (x 1).val + (x 2).val) % 14 = (x 2).val; omega
    | ⟨3, _⟩ => exact h3.symm
  · intro p _; rfl

end Idealize.ShloMosaic.Window14

end
-- ==== Proof.PoolSpec.lean ====
/-
  Attention pooling over a 14 × 14 window of pixels, as a function on the extended reals.

  Each pixel carries 2048 channels. Its GATE is the logistic of a four-layer perceptron of those channels
  (2048 → 64 → 16 → 8 → 1; a layer is the inner product with a weight column plus a bias, the three hidden
  layers followed by max(·, 0)). The POOLED value of a channel is the gate-weighted sum of the pixels' values in that
  channel divided by the sum of the gates.

  Two arrangements of this number are met: the quotient of the two sums as they are, and the quotient of the two
  MEANS (each sum first divided by the number of pixels, 196). They agree on every extended real (`div_mean_mean`):
  off a zero denominator the common positive real factor cancels in the quotient, and at a zero denominator
  both quotients are the infinity of the numerator's sign, which a positive factor does not change.
-/
import Idealize.ShloMosaic.PureOps.Ideal
import Idealize.ShloMosaic.Lib.ValueIdx
import proofs.«123492_j27625229648173_2_alg».proof.Proof.LibWindow14

noncomputable section

open scoped BigOperators

namespace Cert.AttnPool

open Idealize.ShloMosaic Idealize.ShloMosaic.ValueIdx Idealize.ShloMosaic.Window14

/-! ## The perceptron and the gate -/

/-- One output channel `d` of a 1 × 1 convolution at one pixel: the inner product of the pixel's channels with the
    weight column, plus the bias. -/
def dense {K D : Nat} (h : Fin K → EReal) (W : Fin K → Fin D → EReal) (b : Fin D → EReal) (d : Fin D) : EReal :=
  (∑ k : Fin K, h k * W k d) + b d

/-- max(·, 0). -/
def relu (v : EReal) : EReal := max v 0

/-- The four layers' weights and biases, by coordinates. -/
structure Params where
  W1 : Fin 2048 → Fin 64 → EReal
  b1 : Fin 64 → EReal
  W2 : Fin 64 → Fin 16 → EReal
  b2 : Fin 16 → EReal
  W3 : Fin 16 → Fin 8 → EReal
  b3 : Fin 8 → EReal
  W4 : Fin 8 → Fin 1 → EReal
  b4 : Fin 1 → EReal

/-- The three hidden layers of a pixel's channels. -/
def hidden1 (P : Params) (row : Fin 2048 → EReal) (d : Fin 64) : EReal := relu (dense row P.W1 P.b1 d)
def hidden2 (P : Params) (row : Fin 2048 → EReal) (d : Fin 16) : EReal := relu (dense (hidden1 P row) P.W2 P.b2 d)
def hidden3 (P : Params) (row : Fin 2048 → EReal) (d : Fin 8) : EReal := relu (dense (hidden2 P row) P.W3 P.b3 d)
/-- The last layer's one output. -/
def logit (P : Params) (row : Fin 2048 → EReal) : EReal := dense (hidden3 P row) P.W4 P.b4 0
/-- The pixel's gate: the logistic of its logit. -/
def gate (P : Params) (row : Fin 2048 → EReal) : EReal := Ideal.logistic (logit P row)

/-! ## The pooled value -/

/-- The gate-weighted sum of `X` over the 196 positions, divided by the sum of the gates. -/
def pool (g X : Fin 196 → EReal) : EReal := Ideal.div (∑ p : Fin 196, g p * X p) (∑ p : Fin 196, g p)

/-- The parameters read off the six weight and bias arrays as the programs' arguments hold them. -/
def paramsOfArgs (W1 : (⟨2, ![2048, 64]⟩ : Shape).Idx → EReal) (b1 : (⟨1, ![64]⟩ : Shape).Idx → EReal)
    (W2 : (⟨2, ![64, 16]⟩ : Shape).Idx → EReal) (b2 : (⟨1, ![16]⟩ : Shape).Idx → EReal)
    (W3 : (⟨2, ![16, 8]⟩ : Shape).Idx → EReal) (b3 : (⟨1, ![8]⟩ : Shape).Idx → EReal)
    (W4 : (⟨2, ![8, 1]⟩ : Shape).Idx → EReal) (b4 : (⟨1, ![1]⟩ : Shape).Idx → EReal) : Params where
  W1 k d := W1 (ix2 k d)
  b1 d := b1 (ix1 d)
  W2 k d := W2 (ix2 k d)
  b2 d := b2 (ix1 d)
  W3 k d := W3 (ix2 k d)
  b3 d := b3 (ix1 d)
  W4 k d := W4 (ix2 k d)
  b4 d := b4 (ix1 d)

/-- The whole result: at image `b` and channel `c`, the pooled value of channel `c` over the image's 196 pixels,
    position `p` being the pixel (p / 14, p % 14). -/
def pooledAt (P : Params) (x : (⟨4, ![64, 14, 14, 2048]⟩ : Shape).Idx → EReal) (b : Fin 64) (c : Fin 2048) : EReal :=
  pool (fun p => gate P (fun k => x (ix4 b (hi14 p) (lo14 p) k))) (fun p => x (ix4 b (hi14 p) (lo14 p) c))

def G (P : Params) (x : (⟨4, ![64, 14, 14, 2048]⟩ : Shape).Idx → EReal) : (⟨2, ![64, 2048]⟩ : Shape).Idx → EReal :=
  fun j => pooledAt P x (j 0) (j 1)

/-! ## The quotient of the means is the quotient of the sums -/

/-- A positive real factor does not change the sign of an extended real. -/
theorem pos_mul_coe_iff (S : EReal) {c : ℝ} (hc : 0 < c) : 0 < S * (c : EReal) ↔ 0 < S := by
  induction S using EReal.rec with
  | bot => rw [EReal.bot_mul_coe_of_pos hc]
  | top => rw [EReal.top_mul_coe_of_pos hc]
  | coe s => rw [← EReal.coe_mul, EReal.coe_pos, EReal.coe_pos]; exact mul_pos_iff_of_pos_right hc

/-- A common positive real factor cancels in a quotient of extended reals, a zero denominator included. -/
theorem div_mul_mul_cancel (S M : EReal) {c : ℝ} (hc : 0 < c) :
    Ideal.div (S * (c : EReal)) (M * (c : EReal)) = Ideal.div S M := by
  have hc0 : (c : EReal) ≠ 0 := by exact_mod_cast hc.ne'
  unfold Ideal.div
  by_cases hM : M = 0
  · subst hM
    rw [zero_mul, if_pos rfl, if_pos rfl]
    by_cases hS : 0 < S
    · rw [if_pos hS, if_pos ((pos_mul_coe_iff S hc).mpr hS)]
    · rw [if_neg hS, if_neg (fun h => hS ((pos_mul_coe_iff S hc).mp h))]
  · rw [if_neg (mul_ne_zero hM hc0), if_neg hM]
    exact EReal.mul_div_mul_cancel (EReal.coe_ne_bot c) (EReal.coe_ne_top c) hc0

/-- The quotient of two means over 196 terms is the quotient of the two sums. -/
theorem div_mean_mean (S M : EReal) :
    Ideal.div (Ideal.div S ((196 : ℝ) : EReal)) (Ideal.div M ((196 : ℝ) : EReal)) = Ideal.div S M := by
  rw [Ideal.div_coe (by norm_num : (196 : ℝ) ≠ 0), Ideal.div_coe (by norm_num : (196 : ℝ) ≠ 0)]
  exact div_mul_mul_cancel S M (by norm_num)

end Cert.AttnPool

end
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.LibColumnSum.lean ====
/-
  A sum over the FIRST axis of a rank-2 vector read at an index, at the ideal values: at column `b` it is the sum over the
  row coordinate (`colSum2_apply`) — the companion of a row sum (over the second axis). With a unit second extent it is the
  sum of a column vector [n, 1] into [1], the second step of a `keepdims` reduction of a block to one number.
-/
import Idealize.ShloMosaic.PureOps.Ideal.Laws
import Idealize.ShloMosaic.Lib.ValueIdx

noncomputable section

open scoped BigOperators

namespace Idealize.ShloMosaic.ColumnSum

open Idealize.ShloMosaic Idealize.ShloMosaic.ValueIdx

/-- A sum over the first axis of a rank-2 vector, at column `b`: the sum over the row coordinate. -/
theorem colSum2_apply {n0 n1 : Nat} {φ : FTy} (v : FVec Ideal ⟨2, ![n0, n1]⟩ φ) (acc : BitVec φ.bits)
    (h : (⟨2, ![n0, n1]⟩ : Shape).Reduces [0] ⟨1, ![n1]⟩) (hφ : FKind.Formats φ) (hacc : acc = FKind.add.neutral φ hφ)
    (b : Fin n1) :
    multiReduction .add [0] ⟨1, ![n1]⟩ v acc h hφ hacc (ix1 b) = ∑ a : Fin n0, v (ix2 a b) :=
  (Ideal.multiReduction_add_single v acc h hφ hacc (ix1 b)).trans
    (Finset.sum_congr rfl fun k _ => congrArg v (funext fun d => Fin.ext (by
      match d with | ⟨0, _⟩ => rfl | ⟨1, _⟩ => rfl)))

end Idealize.ShloMosaic.ColumnSum

end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.ImageValue.lean ====
/-
  One image of the kernel's body read at an index, at the ideal values: channel `c` of the row `image` stores is the
  pooled value (PoolSpec.lean's `pool`) of the image's 196 pixels at that channel, with each pixel's gate the
  perceptron's (`gate`) at the parameters the weight and bias blocks hold.

  The steps: a hidden layer at (pixel, output channel) is max(·, 0) of the inner product plus the bias
  (`denseRelu_apply`: the matrix product by its plain dimension numbers, the bias row broadcast down the pixels; a
  change of float format is the identity here); the gate column at a pixel is the logistic of the last layer's one
  output (`gates_apply`); the stored row at channel `c` is the sum down the pixels of gate × pixel over the sum of the
  gates (`weighted_apply`: the two sums over the first axis, the unit-axis casts and the broadcasts of a column and of
  a single entry read at their indices).
-/
import proofs.«123492_j27625229648173_2_alg».proof.Proof.KernelImage
import proofs.«123492_j27625229648173_2_alg».proof.Proof.PoolSpec
import proofs.«123492_j27625229648173_2_alg».proof.Proof.LibPlainMatmul
import proofs.«123492_j27625229648173_2_alg».proof.Proof.LibColumnSum
import proofs.«123492_j27625229648173_2_alg».proof.Proof.LibKeepdims
import Idealize.ShloMosaic.Lib.ValueLayout
import Idealize.ShloMosaic.Lib.Pipeline.Value
import Idealize.ShloMosaic.PureOps.Ideal.Laws

noncomputable section

open scoped BigOperators

namespace Cert.AttnPool.Image

open Cert.KernelIdeal Cert.KernelIdeal.Gen Idealize.ShloMosaic Idealize.SL.Sem
open Idealize.ShloMosaic.ValueIdx Idealize.ShloMosaic.Keepdims Idealize.ShloMosaic.ColumnSum Idealize.ShloMosaic.PlainMatmul
open Cert.AttnPool

/-! ## A layer at (pixel, channel) -/

/-- A hidden layer read at pixel `p` and output channel `j`: max(·, 0) of the inner product of the pixel's row with the
    weight column plus the bias. -/
theorem denseRelu_apply {M K N : Nat} (D : DotDims ⟨2, ![M, K]⟩ ⟨2, ![K, N]⟩ ⟨2, ![M, N]⟩) (hD : D = DotDims.plain M K N)
    (h : FVec Ideal ⟨2, ![M, K]⟩ .f32) (w : FVec Ideal ⟨2, ![K, N]⟩ .bf16) (b : FVec Ideal ⟨2, ![1, N]⟩ .f32)
    (hlt : FTy.bits .bf16 < FTy.bits .f32) (hb : (⟨2, ![1, N]⟩ : Shape).Broadcasts ⟨2, ![M, N]⟩) (p : Fin M) (j : Fin N) :
    maximumf (addf (matmul D none (truncf .bf16 h hlt) w (constant ⟨2, ![M, N]⟩ .f32 0x00000000#32)) (broadcastTo ⟨2, ![M, N]⟩ b hb))
        (broadcast ⟨2, ![M, N]⟩ (Scalar.ofBits .f32 0x00000000#32)) (ix2 p j)
      = relu (dense (fun k => h (ix2 p k)) (fun k j => w (ix2 k j)) (fun j => b (ix2 (0 : Fin 1) j)) j) := by
  subst hD
  show max (matmul (DotDims.plain M K N) none (truncf .bf16 h hlt) w (constant ⟨2, ![M, N]⟩ .f32 0x00000000#32) (ix2 p j)
      + broadcastTo ⟨2, ![M, N]⟩ b hb (ix2 p j)) (Ideal.ofBits .f32 0x00000000#32) = _
  rw [plainMatmul_apply, broadcastTo_1b_ab_apply, Ideal.ofBits_zero_f32]
  rfl

/-- The last layer read at pixel `p` (its one output channel): the inner product plus the bias, no maximum. -/
theorem dense_apply {M K N : Nat} (D : DotDims ⟨2, ![M, K]⟩ ⟨2, ![K, N]⟩ ⟨2, ![M, N]⟩) (hD : D = DotDims.plain M K N)
    (h : FVec Ideal ⟨2, ![M, K]⟩ .f32) (w : FVec Ideal ⟨2, ![K, N]⟩ .bf16) (b : FVec Ideal ⟨2, ![1, N]⟩ .f32)
    (hlt : FTy.bits .bf16 < FTy.bits .f32) (hb : (⟨2, ![1, N]⟩ : Shape).Broadcasts ⟨2, ![M, N]⟩) (p : Fin M) (j : Fin N) :
    addf (matmul D none (truncf .bf16 h hlt) w (constant ⟨2, ![M, N]⟩ .f32 0x00000000#32)) (broadcastTo ⟨2, ![M, N]⟩ b hb) (ix2 p j)
      = dense (fun k => h (ix2 p k)) (fun k j => w (ix2 k j)) (fun j => b (ix2 (0 : Fin 1) j)) j := by
  subst hD
  show matmul (DotDims.plain M K N) none (truncf .bf16 h hlt) w (constant ⟨2, ![M, N]⟩ .f32 0x00000000#32) (ix2 p j)
      + broadcastTo ⟨2, ![M, N]⟩ b hb (ix2 p j) = _
  rw [plainMatmul_apply, broadcastTo_1b_ab_apply]
  rfl

/-! ## The parameters the blocks hold -/

/-- The weights and biases by coordinates, read off the eight blocks: a bias block is one row. -/
def paramsOfBlocks (w1 : FVec Ideal S2048x64 .bf16) (b1 : FVec Ideal S1x64 .f32) (w2 : FVec Ideal S64x16 .bf16) (b2 : FVec Ideal S1x16 .f32)
    (w3 : FVec Ideal S16x8 .bf16) (b3 : FVec Ideal S1x8 .f32) (w4 : FVec Ideal S8x1 .bf16) (b4 : FVec Ideal S1x1 .f32) : Params where
  W1 k d := w1 (ix2 k d)
  b1 d := b1 (ix2 (0 : Fin 1) d)
  W2 k d := w2 (ix2 k d)
  b2 d := b2 (ix2 (0 : Fin 1) d)
  W3 k d := w3 (ix2 k d)
  b3 d := b3 (ix2 (0 : Fin 1) d)
  W4 k d := w4 (ix2 k d)
  b4 d := b4 (ix2 (0 : Fin 1) d)

section
variable (w1 : FVec Ideal S2048x64 .bf16) (b1 : FVec Ideal S1x64 .f32) (w2 : FVec Ideal S64x16 .bf16) (b2 : FVec Ideal S1x16 .f32)
  (w3 : FVec Ideal S16x8 .bf16) (b3 : FVec Ideal S1x8 .f32) (w4 : FVec Ideal S8x1 .bf16) (b4 : FVec Ideal S1x1 .f32)
  (xs : FVec Ideal S196x2048 .f32)

local notation "PP" => paramsOfBlocks w1 b1 w2 b2 w3 b3 w4 b4

theorem layer1_apply (p : Fin 196) (d : Fin 64) :
    layer1 (F := Ideal) w1 b1 xs (ix2 p d) = hidden1 PP (fun k => xs (ix2 p k)) d :=
  denseRelu_apply _ rfl xs w1 b1 _ _ p d

theorem layer2_apply (p : Fin 196) (d : Fin 16) :
    layer2 (F := Ideal) w2 b2 (layer1 w1 b1 xs) (ix2 p d) = hidden2 PP (fun k => xs (ix2 p k)) d := by
  refine (denseRelu_apply _ rfl (layer1 w1 b1 xs) w2 b2 _ _ p d).trans ?_
  unfold hidden2
  exact congrArg (fun f => relu (dense f (PP).W2 (PP).b2 d)) (funext fun k => layer1_apply w1 b1 w2 b2 w3 b3 w4 b4 xs p k)

theorem layer3_apply (p : Fin 196) (d : Fin 8) :
    layer3 (F := Ideal) w3 b3 (layer2 w2 b2 (layer1 w1 b1 xs)) (ix2 p d) = hidden3 PP (fun k => xs (ix2 p k)) d := by
  refine (denseRelu_apply _ rfl (layer2 w2 b2 (layer1 w1 b1 xs)) w3 b3 _ _ p d).trans ?_
  unfold hidden3
  exact congrArg (fun f => relu (dense f (PP).W3 (PP).b3 d)) (funext fun k => layer2_apply w1 b1 w2 b2 w3 b3 w4 b4 xs p k)

/-- The gate column at pixel `p`: the perceptron's gate of the pixel's channels. -/
theorem gates_apply (p : Fin 196) :
    gates (F := Ideal) w4 b4 (layer3 w3 b3 (layer2 w2 b2 (layer1 w1 b1 xs))) (ix2 p (0 : Fin 1)) = gate PP (fun k => xs (ix2 p k)) := by
  show Ideal.logistic (addf (matmul dot_S196x8_S8x1_S196x1_1_0_0_1_n_n none (truncf .bf16 (layer3 w3 b3 (layer2 w2 b2 (layer1 w1 b1 xs))) bitsLt_bf16_f32) w4
      (constant S196x1 .f32 0x00000000#32)) (broadcastTo S196x1 b4 broadcasts_S1x1_S196x1) (ix2 p (0 : Fin 1))) = _
  refine (congrArg Ideal.logistic (dense_apply _ rfl (layer3 w3 b3 (layer2 w2 b2 (layer1 w1 b1 xs))) w4 b4 _ _ p (0 : Fin 1))).trans ?_
  unfold gate logit
  exact congrArg (fun f => Ideal.logistic (dense f (PP).W4 (PP).b4 0)) (funext fun k => layer3_apply w1 b1 w2 b2 w3 b3 w4 b4 xs p k)

end

/-! ## The stored row at a channel -/

/-- Channel `c` of the row: the sum down the pixels of gate × pixel, over the sum of the gates. -/
theorem weighted_apply (a : FVec Ideal S196x1 .f32) (xs : FVec Ideal S196x2048 .f32) (c : Fin 2048) :
    weighted (F := Ideal) a xs (ix3 (0 : Fin 1) (0 : Fin 1) c)
      = Ideal.div (∑ p : Fin 196, a (ix2 p (0 : Fin 1)) * xs (ix2 p c)) (∑ p : Fin 196, a (ix2 p (0 : Fin 1))) := by
  have hnum : multiReduction .add [0] S2048 (mulf (broadcastTo S196x2048 a broadcasts_S196x1_S196x2048) xs) 0x00000000#32
      reduces_S196x2048_S2048 (.inl rfl) rfl (ix1 c) = ∑ p : Fin 196, a (ix2 p (0 : Fin 1)) * xs (ix2 p c) := by
    refine (colSum2_apply _ _ _ _ _ c).trans (Finset.sum_congr rfl fun p _ => ?_)
    rw [mulf_apply, bcast_col_apply]
  have hden : multiReduction .add [0] S1 a 0x00000000#32 reduces_S196x1_S1 (.inl rfl) rfl (ix1 (0 : Fin 1))
      = ∑ p : Fin 196, a (ix2 p (0 : Fin 1)) := colSum2_apply _ _ _ _ _ (0 : Fin 1)
  unfold weighted
  rw [shapeCast_ab_1ab_apply, divf_apply, shapeCast_a_1a_apply, bcast_col_apply, shapeCast_a_1a_apply]
  exact congrArg₂ Ideal.div hnum hden

/-- Channel `c` of what `image` stores: the pooled value of the image's pixels at that channel. -/
theorem image_apply (w1 : FVec Ideal S2048x64 .bf16) (b1 : FVec Ideal S1x64 .f32) (w2 : FVec Ideal S64x16 .bf16) (b2 : FVec Ideal S1x16 .f32)
    (w3 : FVec Ideal S16x8 .bf16) (b3 : FVec Ideal S1x8 .f32) (w4 : FVec Ideal S8x1 .bf16) (b4 : FVec Ideal S1x1 .f32)
    (xs : FVec Ideal S196x2048 .f32) (c : Fin 2048) :
    image (F := Ideal) w1 b1 w2 b2 w3 b3 w4 b4 xs (ix3 (0 : Fin 1) (0 : Fin 1) c)
      = pool (fun p => gate (paramsOfBlocks w1 b1 w2 b2 w3 b3 w4 b4) (fun k => xs (ix2 p k))) (fun p => xs (ix2 p c)) := by
  unfold image pool
  rw [weighted_apply]
  simp only [gates_apply]

end Cert.AttnPool.Image

end
-- ==== Proof.KernelArray.lean ====
/-
  From the body's blocks to the kernel's result array.

  The kernel's grid has 16 points; point `t` stages images 4t … 4t + 3 of the pixel array (the argument reshaped to
  [64, 196, 2048], position p of 196 being pixel (p / 14, p % 14)) and the eight weight and bias arrays whole (the
  weights as they are — narrowing their format changes nothing here — and each bias as one row), and writes back
  rows 4t … 4t + 3 of the [64, 1, 2048] output. The body's four stores tile its output block, and the store for
  image `i` of the block holds, at channel `c`, the pooled value of that image's pixels (ImageValue.lean); so the
  block is one function of the staged blocks (`out_block_apply`), what point `t` writes back is block `t` of the
  pooled array `pooledRows` (`flushed_eq`), the sixteen blocks cover the output array (`cover`), and the array ends
  holding `pooledRows` (`final`). The host's last operation drops the unit axis: the result is the specification's
  `G` of the arguments (`run`).
-/
import proofs.«123492_j27625229648173_2_alg».proof.Proof.Gen.KernelIdeal.Frame
import proofs.«123492_j27625229648173_2_alg».proof.Proof.ImageValue
import Idealize.ShloMosaic.Lib.StableHlo.Run
import Idealize.ShloMosaic.Lib.Pipeline.Value
import Idealize.ShloMosaic.Lib.ValueLayout

noncomputable section

open scoped BigOperators

namespace Cert.AttnPool.KernelRun

open Cert.KernelIdeal Cert.KernelIdeal.Gen Idealize.ShloMosaic Idealize.ShloMosaic.TcCoe Idealize.SL.Sem
open Idealize.ShloMosaic.ValueIdx Idealize.ShloMosaic.Window14
open Idealize.ShloMosaic.Pipeline (Dat)
open Cert.AttnPool Cert.AttnPool.Image

/-! ## The output block as one function of the staged blocks -/

theorem zeros2 : (![0, 0] : Fin 2 → Nat) = fun _ => 0 := funext fun a => by fin_cases a <;> rfl

/-- A weight or bias block is loaded whole: the loaded value is the block. -/
theorem load1 (x : Vec Ideal S2048x64 .bf16) : k0_pay1 (View.ld x r0_0) = x := by
  unfold k0_pay1; rw [shapeCast_self, View.ld_unit_zero zeros2]
theorem load2 (x : Vec Ideal S1x64 .f32) : k0_pay2 (View.ld x r0_1) = x := by
  unfold k0_pay2; rw [shapeCast_self, View.ld_unit_zero zeros2]
theorem load3 (x : Vec Ideal S64x16 .bf16) : k0_pay3 (View.ld x r0_2) = x := by
  unfold k0_pay3; rw [shapeCast_self, View.ld_unit_zero zeros2]
theorem load4 (x : Vec Ideal S1x16 .f32) : k0_pay4 (View.ld x r0_3) = x := by
  unfold k0_pay4; rw [shapeCast_self, View.ld_unit_zero zeros2]
theorem load5 (x : Vec Ideal S16x8 .bf16) : k0_pay5 (View.ld x r0_4) = x := by
  unfold k0_pay5; rw [shapeCast_self, View.ld_unit_zero zeros2]
theorem load6 (x : Vec Ideal S1x8 .f32) : k0_pay6 (View.ld x r0_5) = x := by
  unfold k0_pay6; rw [shapeCast_self, View.ld_unit_zero zeros2]
theorem load7 (x : Vec Ideal S8x1 .bf16) : k0_pay7 (View.ld x r0_6) = x := by
  unfold k0_pay7; rw [shapeCast_self, View.ld_unit_zero zeros2]
theorem load8 (x : Vec Ideal S1x1 .f32) : k0_pay8 (View.ld x r0_7) = x := by
  unfold k0_pay8; rw [shapeCast_self, View.ld_unit_zero zeros2]

/-- Image `i` of the pixel block, loaded as a 1 × 196 × 2048 slab at offset `i` and its unit axis dropped: pixel `p`,
    channel `k` of it is the block's entry (i, p, k). -/
theorem slab_apply (x0 : Vec Ideal S4x196x2048 .f32) (o : Nat) (inb : ∀ a, (![o, 0, 0] : Fin 3 → Nat) a + S1x196x2048.size a ≤ S4x196x2048.size a)
    (i : Fin 4) (hi : i.val = o) (p : Fin 196) (k : Fin 2048) :
    pixels (View.ld x0 (Rect.unit (s := S4x196x2048) ![o, 0, 0] S1x196x2048.size inb)) (ix2 p k) = x0 (ix3 i p k) := by
  show shapeCast S196x2048 (View.ld x0 (Rect.unit (s := S4x196x2048) ![o, 0, 0] S1x196x2048.size inb)) shapeCasts_S1x196x2048_S196x2048 (ix2 p k) = _
  rw [shapeCast_1ab_ab_apply]
  show x0 ((Rect.unit (s := S4x196x2048) ![o, 0, 0] S1x196x2048.size inb).idx (ix3 (0 : Fin 1) p k)) = x0 (ix3 i p k)
  refine congrArg x0 (funext fun a => Fin.ext ?_)
  match a with
  | ⟨0, _⟩ => show o + 1 * 0 = i.val; omega
  | ⟨1, _⟩ => show 0 + 1 * p.val = p.val; omega
  | ⟨2, _⟩ => show 0 + 1 * k.val = k.val; omega

/-- The pooled value of image `i` of a pixel block at channel `c`. -/
def blockPoolAt (x0 : S4x196x2048.Idx → EReal) (P : Params) (i : Fin 4) (c : Fin 2048) : EReal :=
  pool (fun p => gate P (fun k => x0 (ix3 i p k))) (fun p => x0 (ix3 i p c))

/-- The output block, entry by entry: row `i` is image `i`'s pooled channels. -/
def blockPool (x0 : S4x196x2048.Idx → EReal) (P : Params) (y : S4x1x2048.Idx) : EReal := blockPoolAt x0 P (y 0) (y 2)

/-- The store for the image at offset `o` agrees with `blockPool` on its rectangle (row `o` of the block). -/
theorem piece_agrees (x0 : Vec Ideal S4x196x2048 .f32) (w1 : FVec Ideal S2048x64 .bf16) (b1 : FVec Ideal S1x64 .f32)
    (w2 : FVec Ideal S64x16 .bf16) (b2 : FVec Ideal S1x16 .f32) (w3 : FVec Ideal S16x8 .bf16) (b3 : FVec Ideal S1x8 .f32)
    (w4 : FVec Ideal S8x1 .bf16) (b4 : FVec Ideal S1x1 .f32) (o : Nat) (ho : o < 4)
    (inbi : ∀ a, (![o, 0, 0] : Fin 3 → Nat) a + S1x196x2048.size a ≤ S4x196x2048.size a)
    (inbo : ∀ a, (![o, 0, 0] : Fin 3 → Nat) a + S1x1x2048.size a ≤ S4x1x2048.size a) (x : S1x1x2048.Idx) :
    image w1 b1 w2 b2 w3 b3 w4 b4 (pixels (View.ld x0 (Rect.unit (s := S4x196x2048) ![o, 0, 0] S1x196x2048.size inbi))) x
      = blockPool x0 (paramsOfBlocks w1 b1 w2 b2 w3 b3 w4 b4) ((Rect.unit (s := S4x1x2048) ![o, 0, 0] S1x1x2048.size inbo).emb x) := by
  obtain ⟨u, v, cc, rfl⟩ : ∃ (u v : Fin 1) (cc : Fin 2048), x = ix3 u v cc := ⟨x 0, x 1, x 2, eq_ix3 x⟩
  obtain rfl : u = 0 := Subsingleton.elim _ _
  obtain rfl : v = 0 := Subsingleton.elim _ _
  rw [image_apply]
  unfold blockPool blockPoolAt
  have h0 : ((Rect.unit (s := S4x1x2048) ![o, 0, 0] S1x1x2048.size inbo).emb (ix3 (0 : Fin 1) (0 : Fin 1) cc)) 0 = (⟨o, ho⟩ : Fin 4) :=
    Fin.ext (by show o + 1 * 0 = o; omega)
  have h2 : ((Rect.unit (s := S4x1x2048) ![o, 0, 0] S1x1x2048.size inbo).emb (ix3 (0 : Fin 1) (0 : Fin 1) cc)) 2 = cc :=
    Fin.ext (by show 0 + 1 * cc.val = cc.val; omega)
  rw [h0, h2]
  simp only [slab_apply x0 o inbi ⟨o, ho⟩ rfl]

/-- What the body leaves in the output block, of any staged blocks: `blockPool` of the pixel block at the parameters
    the weight and bias blocks hold. -/
theorem out_block_apply (x0 : Vec Ideal S4x196x2048 .f32) (x1 : Vec Ideal S2048x64 .bf16) (x2 : Vec Ideal S1x64 .f32) (x3 : Vec Ideal S64x16 .bf16)
    (x4 : Vec Ideal S1x16 .f32) (x5 : Vec Ideal S16x8 .bf16) (x6 : Vec Ideal S1x8 .f32) (x7 : Vec Ideal S8x1 .bf16) (x8 : Vec Ideal S1x1 .f32)
    (y : S4x1x2048.Idx) :
    out0_9 (F := Ideal) x0 x1 x2 x3 x4 x5 x6 x7 x8 y = blockPool x0 (paramsOfBlocks x1 x2 x3 x4 x5 x6 x7 x8) y := by
  unfold out0_9
  rw [piece0_eq, piece1_eq, piece2_eq, piece3_eq]
  simp only [load1, load2, load3, load4, load5, load6, load7, load8]
  refine View.canon_apply_of_pieces (Val := Elt Ideal) (e := .f32) (blockPool x0 (paramsOfBlocks x1 x2 x3 x4 x5 x6 x7 x8)) _ ?_ y (cover0_9 _ _ _ _ y)
  intro pc hpc x
  simp only [List.mem_cons, List.not_mem_nil, or_false] at hpc
  rcases hpc with rfl | rfl | rfl | rfl
  · exact piece_agrees x0 x1 x2 x3 x4 x5 x6 x7 x8 3 (by omega) inb_S4x196x2048_S1x196x2048_3_0_0 inb_S4x1x2048_S1x1x2048_3_0_0 x
  · exact piece_agrees x0 x1 x2 x3 x4 x5 x6 x7 x8 2 (by omega) inb_S4x196x2048_S1x196x2048_2_0_0 inb_S4x1x2048_S1x1x2048_2_0_0 x
  · exact piece_agrees x0 x1 x2 x3 x4 x5 x6 x7 x8 1 (by omega) inb_S4x196x2048_S1x196x2048_1_0_0 inb_S4x1x2048_S1x1x2048_1_0_0 x
  · exact piece_agrees x0 x1 x2 x3 x4 x5 x6 x7 x8 0 (by omega) inb_S4x196x2048_S1x196x2048_0_0_0 inb_S4x1x2048_S1x1x2048_0_0_0 x

/-! ## The arrays the region finds, and the blocks staged at a point -/

variable (m : (ℓ : Loc nD τ sig) → Buf (Elt Ideal) ℓ) (ρ : Dev nD → PrngReg)

/-- The pixel array as the region finds it: the first argument reshaped. -/
theorem found_pixels (c : Dev nD) : (V m c main_v0 : S64x196x2048.Idx → EReal)
    = shapeCast S64x196x2048 (m ((c : Thread nD τ).loc main_arg0)) shapeCasts_S64x14x14x2048_S64x196x2048 := by
  show StableHlo.after hostOps0 (fun b => m (c, b)) (Proc.devRef .tc main_v0) = _
  after_results
  rfl
/-- Weight array 1: the argument itself (a change of format is the identity). -/
theorem found1 (c : Dev nD) : (V m c main_v1 : S2048x64.Idx → EReal) = ((m ((c : Thread nD τ).loc main_arg1)) : S2048x64.Idx → EReal) := by
  show StableHlo.after hostOps0 (fun b => m (c, b)) (Proc.devRef .tc main_v1) = _
  after_results
  rfl
/-- Bias array 2: the argument as one row. -/
theorem found2 (c : Dev nD) : (V m c main_v5 : S1x64.Idx → EReal) = shapeCast S1x64 (m ((c : Thread nD τ).loc main_arg2)) shapeCasts_S64_S1x64 := by
  show StableHlo.after hostOps0 (fun b => m (c, b)) (Proc.devRef .tc main_v5) = _
  after_results
  rfl
/-- Weight array 3: the argument itself (a change of format is the identity). -/
theorem found3 (c : Dev nD) : (V m c main_v2 : S64x16.Idx → EReal) = ((m ((c : Thread nD τ).loc main_arg3)) : S64x16.Idx → EReal) := by
  show StableHlo.after hostOps0 (fun b => m (c, b)) (Proc.devRef .tc main_v2) = _
  after_results
  rfl
/-- Bias array 4: the argument as one row. -/
theorem found4 (c : Dev nD) : (V m c main_v6 : S1x16.Idx → EReal) = shapeCast S1x16 (m ((c : Thread nD τ).loc main_arg4)) shapeCasts_S16_S1x16 := by
  show StableHlo.after hostOps0 (fun b => m (c, b)) (Proc.devRef .tc main_v6) = _
  after_results
  rfl
/-- Weight array 5: the argument itself (a change of format is the identity). -/
theorem found5 (c : Dev nD) : (V m c main_v3 : S16x8.Idx → EReal) = ((m ((c : Thread nD τ).loc main_arg5)) : S16x8.Idx → EReal) := by
  show StableHlo.after hostOps0 (fun b => m (c, b)) (Proc.devRef .tc main_v3) = _
  after_results
  rfl
/-- Bias array 6: the argument as one row. -/
theorem found6 (c : Dev nD) : (V m c main_v7 : S1x8.Idx → EReal) = shapeCast S1x8 (m ((c : Thread nD τ).loc main_arg6)) shapeCasts_S8_S1x8 := by
  show StableHlo.after hostOps0 (fun b => m (c, b)) (Proc.devRef .tc main_v7) = _
  after_results
  rfl
/-- Weight array 7: the argument itself (a change of format is the identity). -/
theorem found7 (c : Dev nD) : (V m c main_v4 : S8x1.Idx → EReal) = ((m ((c : Thread nD τ).loc main_arg7)) : S8x1.Idx → EReal) := by
  show StableHlo.after hostOps0 (fun b => m (c, b)) (Proc.devRef .tc main_v4) = _
  after_results
  rfl
/-- Bias array 8: the argument as one row. -/
theorem found8 (c : Dev nD) : (V m c main_v8 : S1x1.Idx → EReal) = shapeCast S1x1 (m ((c : Thread nD τ).loc main_arg8)) shapeCasts_S1_S1x1 := by
  show StableHlo.after hostOps0 (fun b => m (c, b)) (Proc.devRef .tc main_v8) = _
  after_results
  rfl

/-- The printed index maps over the grid: the pixel window and the output window move with the grid coordinate on their
    first axis; every weight and bias window stays at block (0, 0). -/
theorem idx_w0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx_w9 : ∀ t : Fin cfg0.N, win0_9.index t (0 : Fin 3) = t.val ∧ win0_9.index t (1 : Fin 3) = 0 ∧ win0_9.index t (2 : Fin 3) = 0 :=
  (by decide +kernel : ∀ t : Fin grid0.N, _)
theorem idx_w1 : ∀ t : Fin cfg0.N, win0_1.index t (0 : Fin 2) = 0 ∧ win0_1.index t (1 : Fin 2) = 0 :=
  (by decide +kernel : ∀ t : Fin grid0.N, _)
theorem idx_w2 : ∀ t : Fin cfg0.N, win0_2.index t (0 : Fin 2) = 0 ∧ win0_2.index t (1 : Fin 2) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_w7 : ∀ t : Fin cfg0.N, win0_7.index t (0 : Fin 2) = 0 ∧ win0_7.index t (1 : Fin 2) = 0 :=
  (by decide +kernel : ∀ t : Fin grid0.N, _)
theorem idx_w8 : ∀ t : Fin cfg0.N, win0_8.index t (0 : Fin 2) = 0 ∧ win0_8.index t (1 : Fin 2) = 0 :=
  (by decide +kernel : ∀ t : Fin grid0.N, _)

/-- The image that row `i` of point `t`'s blocks belongs to. -/
def imgOf (t : Fin cfg0.N) (i : Fin 4) : Fin 64 := ⟨4 * t.val + i.val, by have := t.isLt; have h : cfg0.N = 16 := N_0; omega⟩

/-- The pixel block staged at point `t`: entry (i, p, k) is the argument's pixel (p / 14, p % 14) of image 4t + i at channel k. -/
theorem xblk_apply (c : Dev nD) (t : Fin cfg0.N) (i : Fin 4) (p : Fin 196) (k : Fin 2048) :
    iblk m c 0 t (ix3 i p k) = ((m ((c : Thread nD τ).loc main_arg0)) : S64x14x14x2048.Idx → EReal) (ix4 (imgOf t i) (hi14 p) (lo14 p) k) := by
  obtain ⟨h0, h1, h2⟩ := idx_w0 t
  show V m c main_v0 (((cfg0.win 0).blk t).view.emb (ix3 i p k)) = _
  have he : ((cfg0.win 0).blk t).view.emb (ix3 i p k) = ix3 (imgOf t i) p k := funext fun a => Fin.ext (by
    match a with
    | ⟨0, _⟩ => show win0_0.index t (0 : Fin 3) * 4 + 1 * i.val = 4 * t.val + i.val; omega
    | ⟨1, _⟩ => show win0_0.index t (1 : Fin 3) * 196 + 1 * p.val = p.val; omega
    | ⟨2, _⟩ => show win0_0.index t (2 : Fin 3) * 2048 + 1 * k.val = k.val; omega)
  rw [he, found_pixels m c, flatten_apply]

/-- Window 1's block at any point is its whole array. -/
theorem blk1 (c : Dev nD) (t : Fin cfg0.N) : (iblk m c 1 t : S2048x64.Idx → EReal) = (V m c main_v1 : S2048x64.Idx → EReal) := by
  obtain ⟨h0, h1⟩ := idx_w1 t
  funext y
  show V m c main_v1 (((cfg0.win 1).blk t).view.emb y) = _
  refine congrArg (V m c main_v1 : S2048x64.Idx → EReal) (funext fun a => Fin.ext ?_)
  match a with
  | ⟨0, _⟩ => show win0_1.index t (0 : Fin 2) * 2048 + 1 * (y 0).val = (y 0).val; omega
  | ⟨1, _⟩ => show win0_1.index t (1 : Fin 2) * 64 + 1 * (y 1).val = (y 1).val; omega

/-- Window 2's block at any point is its whole array. -/
theorem blk2 (c : Dev nD) (t : Fin cfg0.N) : (iblk m c 2 t : S1x64.Idx → EReal) = (V m c main_v5 : S1x64.Idx → EReal) := by
  obtain ⟨h0, h1⟩ := idx_w2 t
  funext y
  show V m c main_v5 (((cfg0.win 2).blk t).view.emb y) = _
  refine congrArg (V m c main_v5 : S1x64.Idx → EReal) (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- Window 3's block at any point is its whole array. -/
theorem blk3 (c : Dev nD) (t : Fin cfg0.N) : (iblk m c 3 t : S64x16.Idx → EReal) = (V m c main_v2 : S64x16.Idx → EReal) := by
  obtain ⟨h0, h1⟩ := idx_w3 t
  funext y
  show V m c main_v2 (((cfg0.win 3).blk t).view.emb y) = _
  refine congrArg (V m c main_v2 : S64x16.Idx → EReal) (funext fun a => Fin.ext ?_)
  match a with
  | ⟨0, _⟩ => show win0_3.index t (0 : Fin 2) * 64 + 1 * (y 0).val = (y 0).val; omega
  | ⟨1, _⟩ => show win0_3.index t (1 : Fin 2) * 16 + 1 * (y 1).val = (y 1).val; omega

/-- Window 4's block at any point is its whole array. -/
theorem blk4 (c : Dev nD) (t : Fin cfg0.N) : (iblk m c 4 t : S1x16.Idx → EReal) = (V m c main_v6 : S1x16.Idx → EReal) := by
  obtain ⟨h0, h1⟩ := idx_w4 t
  funext y
  show V m c main_v6 (((cfg0.win 4).blk t).view.emb y) = _
  refine congrArg (V m c main_v6 : S1x16.Idx → EReal) (funext fun a => Fin.ext ?_)
  match a with
  | ⟨0, _⟩ => show win0_4.index t (0 : Fin 2) * 1 + 1 * (y 0).val = (y 0).val; omega
  | ⟨1, _⟩ => show win0_4.index t (1 : Fin 2) * 16 + 1 * (y 1).val = (y 1).val; omega

/-- Window 5's block at any point is its whole array. -/
theorem blk5 (c : Dev nD) (t : Fin cfg0.N) : (iblk m c 5 t : S16x8.Idx → EReal) = (V m c main_v3 : S16x8.Idx → EReal) := by
  obtain ⟨h0, h1⟩ := idx_w5 t
  funext y
  show V m c main_v3 (((cfg0.win 5).blk t).view.emb y) = _
  refine congrArg (V m c main_v3 : S16x8.Idx → EReal) (funext fun a => Fin.ext ?_)
  match a with
  | ⟨0, _⟩ => show win0_5.index t (0 : Fin 2) * 16 + 1 * (y 0).val = (y 0).val; omega
  | ⟨1, _⟩ => show win0_5.index t (1 : Fin 2) * 8 + 1 * (y 1).val = (y 1).val; omega

/-- Window 6's block at any point is its whole array. -/
theorem blk6 (c : Dev nD) (t : Fin cfg0.N) : (iblk m c 6 t : S1x8.Idx → EReal) = (V m c main_v7 : S1x8.Idx → EReal) := by
  obtain ⟨h0, h1⟩ := idx_w6 t
  funext y
  show V m c main_v7 (((cfg0.win 6).blk t).view.emb y) = _
  refine congrArg (V m c main_v7 : S1x8.Idx → EReal) (funext fun a => Fin.ext ?_)
  match a with
  | ⟨0, _⟩ => show win0_6.index t (0 : Fin 2) * 1 + 1 * (y 0).val = (y 0).val; omega
  | ⟨1, _⟩ => show win0_6.index t (1 : Fin 2) * 8 + 1 * (y 1).val = (y 1).val; omega

/-- Window 7's block at any point is its whole array. -/
theorem blk7 (c : Dev nD) (t : Fin cfg0.N) : (iblk m c 7 t : S8x1.Idx → EReal) = (V m c main_v4 : S8x1.Idx → EReal) := by
  obtain ⟨h0, h1⟩ := idx_w7 t
  funext y
  show V m c main_v4 (((cfg0.win 7).blk t).view.emb y) = _
  refine congrArg (V m c main_v4 : S8x1.Idx → EReal) (funext fun a => Fin.ext ?_)
  match a with
  | ⟨0, _⟩ => show win0_7.index t (0 : Fin 2) * 8 + 1 * (y 0).val = (y 0).val; omega
  | ⟨1, _⟩ => show win0_7.index t (1 : Fin 2) * 1 + 1 * (y 1).val = (y 1).val; omega

/-- Window 8's block at any point is its whole array. -/
theorem blk8 (c : Dev nD) (t : Fin cfg0.N) : (iblk m c 8 t : S1x1.Idx → EReal) = (V m c main_v8 : S1x1.Idx → EReal) := by
  obtain ⟨h0, h1⟩ := idx_w8 t
  funext y
  show V m c main_v8 (((cfg0.win 8).blk t).view.emb y) = _
  refine congrArg (V m c main_v8 : S1x1.Idx → EReal) (funext fun a => Fin.ext ?_)
  match a with
  | ⟨0, _⟩ => show win0_8.index t (0 : Fin 2) * 1 + 1 * (y 0).val = (y 0).val; omega
  | ⟨1, _⟩ => show win0_8.index t (1 : Fin 2) * 1 + 1 * (y 1).val = (y 1).val; omega

/-- The parameters the programs' arguments hold. -/
abbrev argParams (c : Dev nD) : Params :=
  paramsOfArgs (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))

/-- The parameters the staged weight and bias blocks hold, at any point, are the arguments'. -/
theorem blockParams_eq (c : Dev nD) (t : Fin cfg0.N) :
    paramsOfBlocks (iblk m c 1 t) (iblk m c 2 t) (iblk m c 3 t) (iblk m c 4 t) (iblk m c 5 t) (iblk m c 6 t) (iblk m c 7 t) (iblk m c 8 t)
      = argParams m c := by
  unfold paramsOfBlocks argParams paramsOfArgs
  congr 1
  · funext k d; rw [blk1 m c t, found1 m c]
  · funext d; rw [blk2 m c t, found2 m c, shapeCast_a_1a_apply]
  · funext k d; rw [blk3 m c t, found3 m c]
  · funext d; rw [blk4 m c t, found4 m c, shapeCast_a_1a_apply]
  · funext k d; rw [blk5 m c t, found5 m c]
  · funext d; rw [blk6 m c t, found6 m c, shapeCast_a_1a_apply]
  · funext k d; rw [blk7 m c t, found7 m c]
  · funext d; rw [blk8 m c t, found8 m c, shapeCast_a_1a_apply]

/-! ## What a point writes back, the cover, the array -/

/-- The output array the kernel's region leaves: row b holds image b's pooled channels. -/
def pooledRows (c : Dev nD) : S64x1x2048.Idx → EReal :=
  fun i => pooledAt (argParams m c) (m ((c : Thread nD τ).loc main_arg0)) (i 0) (i 2)

/-- What point `t` writes back is block `t` of `pooledRows`. -/
theorem flushed_eq (c : Dev nD) (t : Fin cfg0.N) :
    (dats m 0 c).flushed 9 t = ((cfg0.win 9).blk t).view.read (Elt Ideal) (pooledRows m c) := by
  show (cfg0.win 9).cut (grid0.coords t) ((dats m 0 c).after 9 t) = _
  rw [after0_9]
  funext y
  show out0_9 (iblk m c 0 t) (iblk m c 1 t) (iblk m c 2 t) (iblk m c 3 t) (iblk m c 4 t) (iblk m c 5 t) (iblk m c 6 t) (iblk m c 7 t) (iblk m c 8 t) y
    = pooledRows m c (((cfg0.win 9).blk t).view.emb y)
  refine (out_block_apply (iblk m c 0 t) (iblk m c 1 t) (iblk m c 2 t) (iblk m c 3 t) (iblk m c 4 t) (iblk m c 5 t) (iblk m c 6 t) (iblk m c 7 t) (iblk m c 8 t) y).trans ?_
  rw [blockParams_eq m c t]
  obtain ⟨i, u, cc, rfl⟩ : ∃ (i : Fin 4) (u : Fin 1) (cc : Fin 2048), y = ix3 i u cc := ⟨y 0, y 1, y 2, eq_ix3 y⟩
  obtain ⟨h0, h1, h2⟩ := idx_w9 t
  have e0 : (((cfg0.win 9).blk t).view.emb (ix3 i u cc)) 0 = imgOf t i :=
    Fin.ext (by show win0_9.index t (0 : Fin 3) * 4 + 1 * i.val = 4 * t.val + i.val; omega)
  have e2 : (((cfg0.win 9).blk t).view.emb (ix3 i u cc)) 2 = cc :=
    Fin.ext (by show win0_9.index t (2 : Fin 3) * 2048 + 1 * cc.val = cc.val; omega)
  unfold pooledRows
  rw [e0, e2]
  unfold blockPool blockPoolAt pooledAt
  simp only [xblk_apply m c t]

/-- An index of the output array is in point `t`'s block iff each coordinate is in the block's range on its axis. -/
theorem mem_blk (t : Fin cfg0.N) (i : S64x1x2048.Idx) :
    i ∈ ((cfg0.win 9).blk t).view.set ↔ ∀ a : Fin 3, win0_9.index t a * S4x1x2048.size a ≤ (i a).val ∧ (i a).val < win0_9.index t a * S4x1x2048.size a + S4x1x2048.size a := by
  show i ∈ ((View.whole main_v9).slice (win0_9.rect t)).set ↔ _
  rw [View.set_slice_whole, Rect.mem_set_unit]
  exact Iff.rfl

/-- Every row of the output array is in some point's block: row b in point b / 4's. -/
theorem cover (i : S64x1x2048.Idx) : ∃ t : Fin cfg0.N, (cfg0.win 9).flush t = true ∧ i ∈ ((cfg0.win 9).blk t).view.set := by
  have hN : cfg0.N = 16 := N_0
  have hi0 : (i 0).val < 64 := (i 0).isLt
  have hi1 : (i 1).val < 1 := (i 1).isLt
  have hi2 : (i 2).val < 2048 := (i 2).isLt
  refine ⟨⟨(i 0).val / 4, by omega⟩, flush0_9 _, ?_⟩
  rw [mem_blk]
  obtain ⟨h0, h1, h2⟩ := idx_w9 ⟨(i 0).val / 4, by omega⟩
  intro a
  match a with
  | ⟨0, _⟩ => show win0_9.index _ (0 : Fin 3) * 4 ≤ (i 0).val ∧ (i 0).val < win0_9.index _ (0 : Fin 3) * 4 + 4; rw [h0]; show (i 0).val / 4 * 4 ≤ (i 0).val ∧ (i 0).val < (i 0).val / 4 * 4 + 4; omega
  | ⟨1, _⟩ => show win0_9.index _ (1 : Fin 3) * 1 ≤ (i 1).val ∧ (i 1).val < win0_9.index _ (1 : Fin 3) * 1 + 1; rw [h1]; omega
  | ⟨2, _⟩ => show win0_9.index _ (2 : Fin 3) * 2048 ≤ (i 2).val ∧ (i 2).val < win0_9.index _ (2 : Fin 3) * 2048 + 2048; rw [h2]; omega

/-- The output array after the region: `pooledRows`. -/
theorem final (c : Dev nD) : (dats m 0 c).arrAt 9 cfg0.N = pooledRows m c :=
  (dats m 0 c).arrAt_eq_of_cover 9 (pooledRows m c) (fun t _ => flushed_eq m c t) cover

end Cert.AttnPool.KernelRun

end
-- ==== Proof.KernelResult.lean ====
/-
  The kernel's run, read: after the region the host drops the unit axis of the [64, 1, 2048] output array, so the
  result at (b, c) is the region's output at (b, 0, c) — image b's pooled channel c: the specification's `G` of the
  arguments. The argument arrays end as they began (the generated frame's facts).
-/
import proofs.«123492_j27625229648173_2_alg».proof.Proof.KernelArray

noncomputable section

namespace Cert.AttnPool.KernelRun

open Cert.KernelIdeal Cert.KernelIdeal.Gen Idealize.ShloMosaic Idealize.ShloMosaic.TcCoe Idealize.SL.Sem
open Idealize.ShloMosaic.ValueIdx Idealize.ShloMosaic.Window14
open Idealize.ShloMosaic.Pipeline (Dat)
open Cert.AttnPool Cert.AttnPool.Image

variable (m : (ℓ : Loc nD τ sig) → Buf (Elt Ideal) ℓ) (ρ : Dev nD → PrngReg)

/-- What the host's last operation leaves in the result: the region's output array with its unit axis dropped,
    which is `G` of the arguments. -/
theorem tail_eq (c : Dev nD) :
    Pipeline.afterTail₀ cfgs (dats m) 0 (V0 m) [hostOps1] c main_v10 = G (argParams m c) (m ((c : Thread nD τ).loc main_arg0)) := by
  unfold Pipeline.afterTail₀
  show StableHlo.after hostOps1 _ (Proc.devRef .tc main_v10) = _
  after_results
  have ha : (Pipeline.withArrays (cfgs 0).spec c (V0 m c) (fun w => (dats m 0 c).arrAt w (cfgs 0).N) (Proc.devRef .tc main_v9) : S64x1x2048.Idx → EReal)
      = pooledRows m c :=
    (Pipeline.withArrays_arr spec0 launch0.win.arr_inj c _ _ 9).trans (final m c)
  show shapeCast S64x2048 (Pipeline.withArrays (cfgs 0).spec c (V0 m c) (fun w => (dats m 0 c).arrAt w (cfgs 0).N) (Proc.devRef .tc main_v9) : S64x1x2048.Idx → EReal)
      shapeCasts_S64x1x2048_S64x2048 = _
  rw [ha]
  funext j
  obtain ⟨b, cc, rfl⟩ : ∃ (b : Fin 64) (cc : Fin 2048), j = ix2 b cc := ⟨j 0, j 1, eq_ix2 j⟩
  rw [squeeze_mid_apply]
  rfl

/-- Every weakly fair execution of the kernel's program terminates with the result at `G` of the arguments and the
    arguments unchanged. -/
theorem run : θ_run defs (onTc (τ := τ) (main (F := Ideal))) ⟨m, fun _ => 0, ρ⟩ fun r => ∀ c : Dev nD,
      r.2.mem ((c.tc : Thread nD τ).loc main_v10) = G (argParams m c) (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.AttnPool.KernelRun

end
-- ==== Proof.ReferencePool.lean ====
/-
  The reference program, read at the extended reals, is the attention pooling of the specification.

  The program computes, per pixel, the four dense layers (a contraction over the channel axis plus a broadcast
  bias, the first three followed by a maximum with zero), the logistic written out as 1 / (1 + exp (−z)), the
  product of the gate with every channel of the pixel, the two sums over the 14 × 14 window, each divided by 196,
  and the quotient of the two means. Each stage is read at explicit coordinates and identified with the
  specification's function of the same name; the last step cancels the common divisor 196.
-/
import proofs.«123492_j27625229648173_2_alg».proof.Proof.Gen.ReferenceIdeal.Read
import proofs.«123492_j27625229648173_2_alg».proof.Proof.PoolSpec

noncomputable section

open scoped BigOperators

namespace Cert.AttnPool.Reference

open Cert.ReferenceIdeal Cert.ReferenceIdeal.Gen Cert.ReferenceIdeal.Read Idealize.ShloMosaic
  Idealize.ShloMosaic.ValueIdx Idealize.ShloMosaic.Window14 Cert.AttnPool

/-! ## The two literals -/

/-- The pattern of `1.0` denotes the extended real `1`. -/
theorem ofBits_one : Ideal.ofBits .f32 0x3F800000#32 = 1 := by
  simp [Ideal.ofBits, Ideal.ieee, -EReal.coe_mul]; norm_num

/-- The pattern of `196.0` denotes the real `196`. -/
theorem ofBits_196 : Ideal.ofBits .f32 0x43440000#32 = ((196 : ℝ) : EReal) := by
  simp [Ideal.ofBits, Ideal.ieee, -EReal.coe_mul]; norm_num

/-! ## The index maps at explicit coordinates -/

section Indices

theorem lidx_v0_eq (b : Fin 64) (h w : Fin 14) (d : Fin 64) (k : Fin 2048) :
    lidx_main_v0 (ix4 b h w d) k = ix4 b h w k :=
  funext fun a => Fin.ext (by match a with | ⟨0, _⟩ => rfl | ⟨1, _⟩ => rfl | ⟨2, _⟩ => rfl | ⟨3, _⟩ => rfl)

theorem ridx_v0_eq (b : Fin 64) (h w : Fin 14) (d : Fin 64) (k : Fin 2048) :
    ridx_main_v0 (ix4 b h w d) k = ix2 k d :=
  funext fun a => Fin.ext (by match a with | ⟨0, _⟩ => rfl | ⟨1, _⟩ => rfl)

theorem idx_v2_eq (b : Fin 64) (h w : Fin 14) (d : Fin 64) :
    idx_main_v1 (idx_main_v2 (ix4 b h w d)) = ix1 d :=
  funext fun a => Fin.ext (by match a with | ⟨0, _⟩ => rfl)

theorem lidx_v5_eq (b : Fin 64) (h w : Fin 14) (d : Fin 16) (k : Fin 64) :
    lidx_main_v5 (ix4 b h w d) k = ix4 b h w k :=
  funext fun a => Fin.ext (by match a with | ⟨0, _⟩ => rfl | ⟨1, _⟩ => rfl | ⟨2, _⟩ => rfl | ⟨3, _⟩ => rfl)

theorem ridx_v5_eq (b : Fin 64) (h w : Fin 14) (d : Fin 16) (k : Fin 64) :
    ridx_main_v5 (ix4 b h w d) k = ix2 k d :=
  funext fun a => Fin.ext (by match a with | ⟨0, _⟩ => rfl | ⟨1, _⟩ => rfl)

theorem idx_v7_eq (b : Fin 64) (h w : Fin 14) (d : Fin 16) :
    idx_main_v6 (idx_main_v7 (ix4 b h w d)) = ix1 d :=
  funext fun a => Fin.ext (by match a with | ⟨0, _⟩ => rfl)

theorem lidx_v10_eq (b : Fin 64) (h w : Fin 14) (d : Fin 8) (k : Fin 16) :
    lidx_main_v10 (ix4 b h w d) k = ix4 b h w k :=
  funext fun a => Fin.ext (by match a with | ⟨0, _⟩ => rfl | ⟨1, _⟩ => rfl | ⟨2, _⟩ => rfl | ⟨3, _⟩ => rfl)

theorem ridx_v10_eq (b : Fin 64) (h w : Fin 14) (d : Fin 8) (k : Fin 16) :
    ridx_main_v10 (ix4 b h w d) k = ix2 k d :=
  funext fun a => Fin.ext (by match a with | ⟨0, _⟩ => rfl | ⟨1, _⟩ => rfl)

theorem idx_v12_eq (b : Fin 64) (h w : Fin 14) (d : Fin 8) :
    idx_main_v11 (idx_main_v12 (ix4 b h w d)) = ix1 d :=
  funext fun a => Fin.ext (by match a with | ⟨0, _⟩ => rfl)

theorem lidx_v15_eq (b : Fin 64) (h w : Fin 14) (d : Fin 1) (k : Fin 8) :
    lidx_main_v15 (ix4 b h w d) k = ix4 b h w k :=
  funext fun a => Fin.ext (by match a with | ⟨0, _⟩ => rfl | ⟨1, _⟩ => rfl | ⟨2, _⟩ => rfl | ⟨3, _⟩ => rfl)

theorem ridx_v15_eq (b : Fin 64) (h w : Fin 14) (d : Fin 1) (k : Fin 8) :
    ridx_main_v15 (ix4 b h w d) k = ix2 k d :=
  funext fun a => Fin.ext (by match a with | ⟨0, _⟩ => rfl | ⟨1, _⟩ => rfl)

theorem idx_v17_eq (b : Fin 64) (h w : Fin 14) (d : Fin 1) :
    idx_main_v16 (idx_main_v17 (ix4 b h w d)) = ix1 (0 : Fin 1) :=
  funext fun a => Fin.ext (by match a with | ⟨0, _⟩ => rfl)

theorem idx_v25_eq (b : Fin 64) (h w : Fin 14) (c : Fin 2048) :
    idx_main_v25 (ix4 b h w c) = ix4 b h w (0 : Fin 1) :=
  funext fun a => Fin.ext (by match a with | ⟨0, _⟩ => rfl | ⟨1, _⟩ => rfl | ⟨2, _⟩ => rfl | ⟨3, _⟩ => rfl)

theorem idx_v33_eq (b : Fin 64) (c : Fin 2048) :
    idx_main_v33 (ix2 b c) = ix2 b (0 : Fin 1) :=
  funext fun a => Fin.ext (by match a with | ⟨0, _⟩ => rfl | ⟨1, _⟩ => rfl)

end Indices

/-! ## The perceptron, layer by layer -/

section Layers

variable (x0 : (⟨S64x14x14x2048, .f32⟩ : BufTy).Contents (Elt Ideal))
  (x1 : (⟨S2048x64, .f32⟩ : BufTy).Contents (Elt Ideal)) (x2 : (⟨S64, .f32⟩ : BufTy).Contents (Elt Ideal))
  (x3 : (⟨S64x16, .f32⟩ : BufTy).Contents (Elt Ideal)) (x4 : (⟨S16, .f32⟩ : BufTy).Contents (Elt Ideal))
  (x5 : (⟨S16x8, .f32⟩ : BufTy).Contents (Elt Ideal)) (x6 : (⟨S8, .f32⟩ : BufTy).Contents (Elt Ideal))
  (x7 : (⟨S8x1, .f32⟩ : BufTy).Contents (Elt Ideal)) (x8 : (⟨S1, .f32⟩ : BufTy).Contents (Elt Ideal))

/-- The first hidden layer at pixel (b, h, w), output channel d. -/
theorem v4_eq (b : Fin 64) (h w : Fin 14) (d : Fin 64) :
    val_main_v4 (F := Ideal) x0 x1 x2 (ix4 b h w d)
      = hidden1 (paramsOfArgs x1 x2 x3 x4 x5 x6 x7 x8) (fun k => x0 (ix4 b h w k)) d := by
  rw [val_main_v4_apply, val_main_v3_apply, val_main_v0_apply, val_main_v2_apply, val_main_v1_apply,
    val_main_call0_v0_apply, val_main_call0_cst_apply, idx_v2_eq, Ideal.maximumf_def, Ideal.addf_def,
    Ideal.ofBits_def, Ideal.ofBits_zero_f32]
  refine congrArg (fun s : EReal => max (s + x2 (ix1 d)) 0) (Finset.sum_congr rfl fun k _ => ?_)
  exact congrArg₂ (· * ·) (congrArg x0 (lidx_v0_eq b h w d k)) (congrArg x1 (ridx_v0_eq b h w d k))

/-- The second hidden layer at pixel (b, h, w), output channel d. -/
theorem v9_eq (b : Fin 64) (h w : Fin 14) (d : Fin 16) :
    val_main_v9 (F := Ideal) x0 x1 x2 x3 x4 (ix4 b h w d)
      = hidden2 (paramsOfArgs x1 x2 x3 x4 x5 x6 x7 x8) (fun k => x0 (ix4 b h w k)) d := by
  rw [val_main_v9_apply, val_main_v8_apply, val_main_v5_apply, val_main_v7_apply, val_main_v6_apply,
    val_main_call1_v0_apply, val_main_call1_cst_apply, idx_v7_eq, Ideal.maximumf_def, Ideal.addf_def,
    Ideal.ofBits_def, Ideal.ofBits_zero_f32]
  refine congrArg (fun s : EReal => max (s + x4 (ix1 d)) 0) (Finset.sum_congr rfl fun k _ => ?_)
  exact congrArg₂ (· * ·)
    ((congrArg (val_main_v4 (F := Ideal) x0 x1 x2) (lidx_v5_eq b h w d k)).trans
      (v4_eq x0 x1 x2 x3 x4 x5 x6 x7 x8 b h w k))
    (congrArg x3 (ridx_v5_eq b h w d k))

/-- The third hidden layer at pixel (b, h, w), output channel d. -/
theorem v14_eq (b : Fin 64) (h w : Fin 14) (d : Fin 8) :
    val_main_v14 (F := Ideal) x0 x1 x2 x3 x4 x5 x6 (ix4 b h w d)
      = hidden3 (paramsOfArgs x1 x2 x3 x4 x5 x6 x7 x8) (fun k => x0 (ix4 b h w k)) d := by
  rw [val_main_v14_apply, val_main_v13_apply, val_main_v10_apply, val_main_v12_apply, val_main_v11_apply,
    val_main_call2_v0_apply, val_main_call2_cst_apply, idx_v12_eq, Ideal.maximumf_def, Ideal.addf_def,
    Ideal.ofBits_def, Ideal.ofBits_zero_f32]
  refine congrArg (fun s : EReal => max (s + x6 (ix1 d)) 0) (Finset.sum_congr rfl fun k _ => ?_)
  exact congrArg₂ (· * ·)
    ((congrArg (val_main_v9 (F := Ideal) x0 x1 x2 x3 x4) (lidx_v10_eq b h w d k)).trans
      (v9_eq x0 x1 x2 x3 x4 x5 x6 x7 x8 b h w k))
    (congrArg x5 (ridx_v10_eq b h w d k))

/-- The last layer's one output at pixel (b, h, w): the logit. -/
theorem v18_eq (b : Fin 64) (h w : Fin 14) :
    val_main_v18 (F := Ideal) x0 x1 x2 x3 x4 x5 x6 x7 x8 (ix4 b h w (0 : Fin 1))
      = logit (paramsOfArgs x1 x2 x3 x4 x5 x6 x7 x8) (fun k => x0 (ix4 b h w k)) := by
  rw [val_main_v18_apply, val_main_v15_apply, val_main_v17_apply, val_main_v16_apply, idx_v17_eq,
    Ideal.addf_def]
  refine congrArg (fun s : EReal => s + x8 (ix1 (0 : Fin 1))) (Finset.sum_congr rfl fun k _ => ?_)
  exact congrArg₂ (· * ·)
    ((congrArg (val_main_v14 (F := Ideal) x0 x1 x2 x3 x4 x5 x6) (lidx_v15_eq b h w 0 k)).trans
      (v14_eq x0 x1 x2 x3 x4 x5 x6 x7 x8 b h w k))
    (congrArg x7 (ridx_v15_eq b h w 0 k))

/-- The gate at pixel (b, h, w): one over one plus the exponential of the negated logit is the logistic. -/
theorem v24_eq (b : Fin 64) (h w : Fin 14) :
    val_main_v24 (F := Ideal) x0 x1 x2 x3 x4 x5 x6 x7 x8 (ix4 b h w (0 : Fin 1))
      = gate (paramsOfArgs x1 x2 x3 x4 x5 x6 x7 x8) (fun k => x0 (ix4 b h w k)) := by
  rw [val_main_v24_apply, val_main_v23_apply, val_main_cst_0_apply, val_main_v22_apply, val_main_v21_apply,
    val_main_cst_apply, val_main_v20_apply, val_main_v19_apply, v18_eq, Ideal.hostDivf_def, Ideal.addf_def,
    Ideal.hostUnary_exp_def, Ideal.hostNegf_def, Ideal.negf_def, Ideal.ofBits_def, ofBits_one]
  rfl

end Layers

/-! ## The two window sums, the two means, the quotient -/

section Pool

variable (x0 : (⟨S64x14x14x2048, .f32⟩ : BufTy).Contents (Elt Ideal))
  (x1 : (⟨S2048x64, .f32⟩ : BufTy).Contents (Elt Ideal)) (x2 : (⟨S64, .f32⟩ : BufTy).Contents (Elt Ideal))
  (x3 : (⟨S64x16, .f32⟩ : BufTy).Contents (Elt Ideal)) (x4 : (⟨S16, .f32⟩ : BufTy).Contents (Elt Ideal))
  (x5 : (⟨S16x8, .f32⟩ : BufTy).Contents (Elt Ideal)) (x6 : (⟨S8, .f32⟩ : BufTy).Contents (Elt Ideal))
  (x7 : (⟨S8x1, .f32⟩ : BufTy).Contents (Elt Ideal)) (x8 : (⟨S1, .f32⟩ : BufTy).Contents (Elt Ideal))

/-- The gate broadcast over the channels times the pixel's channel. -/
theorem v26_eq (b : Fin 64) (h w : Fin 14) (c : Fin 2048) :
    val_main_v26 (F := Ideal) x0 x1 x2 x3 x4 x5 x6 x7 x8 (ix4 b h w c)
      = gate (paramsOfArgs x1 x2 x3 x4 x5 x6 x7 x8) (fun k => x0 (ix4 b h w k)) * x0 (ix4 b h w c) := by
  rw [val_main_v26_apply, val_main_v25_apply, idx_v25_eq, v24_eq, Ideal.mulf_def]

/-- The sum over the window of the gated channel values, at image b and channel c. -/
theorem v27_eq (b : Fin 64) (c : Fin 2048) :
    val_main_v27 (F := Ideal) x0 x1 x2 x3 x4 x5 x6 x7 x8 (ix2 b c)
      = ∑ p : Fin 196, gate (paramsOfArgs x1 x2 x3 x4 x5 x6 x7 x8) (fun k => x0 (ix4 b (hi14 p) (lo14 p) k))
          * x0 (ix4 b (hi14 p) (lo14 p) c) := by
  unfold val_main_v27 Host.reduceAdd
  rw [Ideal.hostReduceAdd_def, val_main_cst_1_apply, Ideal.ofBits_def, Ideal.ofBits_zero_f32]
  refine (hostSumWindow_apply reducesTo_S64x14x14x2048_S64x2048_d1_2 _ 0 b c).trans ?_
  rw [zero_add]
  exact Finset.sum_congr rfl fun p _ => v26_eq x0 x1 x2 x3 x4 x5 x6 x7 x8 b (hi14 p) (lo14 p) c

/-- The sum over the window of the gates, at image b. -/
theorem v30_eq (b : Fin 64) :
    val_main_v30 (F := Ideal) x0 x1 x2 x3 x4 x5 x6 x7 x8 (ix2 b (0 : Fin 1))
      = ∑ p : Fin 196, gate (paramsOfArgs x1 x2 x3 x4 x5 x6 x7 x8) (fun k => x0 (ix4 b (hi14 p) (lo14 p) k)) := by
  unfold val_main_v30 Host.reduceAdd
  rw [Ideal.hostReduceAdd_def, val_main_cst_3_apply, Ideal.ofBits_def, Ideal.ofBits_zero_f32]
  refine (hostSumWindow_apply reducesTo_S64x14x14x1_S64x1_d1_2 _ 0 b (0 : Fin 1)).trans ?_
  rw [zero_add]
  exact Finset.sum_congr rfl fun p _ => v24_eq x0 x1 x2 x3 x4 x5 x6 x7 x8 b (hi14 p) (lo14 p)

/-- The program's result at image b and channel c: the quotient of the two means is the pooled value. -/
theorem v34_eq (b : Fin 64) (c : Fin 2048) :
    val_main_v34 (F := Ideal) x0 x1 x2 x3 x4 x5 x6 x7 x8 (ix2 b c)
      = pooledAt (paramsOfArgs x1 x2 x3 x4 x5 x6 x7 x8) x0 b c := by
  rw [val_main_v34_apply, val_main_v29_apply, val_main_v33_apply, val_main_v32_apply, val_main_v28_apply,
    val_main_v31_apply, val_main_cst_2_apply, val_main_cst_4_apply, idx_v33_eq, v27_eq, v30_eq,
    Ideal.hostDivf_def, Ideal.hostDivf_def, Ideal.hostDivf_def, Ideal.ofBits_def, ofBits_196]
  exact div_mean_mean _ _

end Pool

/-- The reference program's result at the extended reals is the attention pooling of its arguments. -/
theorem reference_eq (x0 : (⟨S64x14x14x2048, .f32⟩ : BufTy).Contents (Elt Ideal)) (x1 : (⟨S2048x64, .f32⟩ : BufTy).Contents (Elt Ideal)) (x2 : (⟨S64, .f32⟩ : BufTy).Contents (Elt Ideal)) (x3 : (⟨S64x16, .f32⟩ : BufTy).Contents (Elt Ideal)) (x4 : (⟨S16, .f32⟩ : BufTy).Contents (Elt Ideal)) (x5 : (⟨S16x8, .f32⟩ : BufTy).Contents (Elt Ideal)) (x6 : (⟨S8, .f32⟩ : BufTy).Contents (Elt Ideal)) (x7 : (⟨S8x1, .f32⟩ : BufTy).Contents (Elt Ideal)) (x8 : (⟨S1, .f32⟩ : BufTy).Contents (Elt Ideal)) :
    Cert.ReferenceIdeal.Read.val_main_v34 (F := Ideal) x0 x1 x2 x3 x4 x5 x6 x7 x8 = Cert.AttnPool.G (Cert.AttnPool.paramsOfArgs x1 x2 x3 x4 x5 x6 x7 x8) x0 := by
  funext j
  obtain ⟨b, c, rfl⟩ : ∃ (b : Fin 64) (c : Fin 2048), j = ix2 b c := ⟨j 0, j 1, eq_ix2 j⟩
  exact v34_eq x0 x1 x2 x3 x4 x5 x6 x7 x8 b c

end Cert.AttnPool.Reference

end
-- ==== Proof.lean ====
/-
  An attention-pooling kernel against its reference, on the extended reals.

  Both programs take a batch of 64 images of 14 × 14 pixels with 2048 channels, and the weights and biases of a
  four-layer perceptron (2048 → 64 → 16 → 8 → 1, the maximum with zero after each of the first three layers). Each
  pixel gets a gate, the logistic of the perceptron's output on the pixel's channels; each image and channel gets the
  gate-weighted sum of the channel over the image's 196 pixels divided by the sum of the gates.

  The reference computes this over the [64, 14, 14, 2048] array with the logistic written out as
  1 / (1 + exp (−z)) and each of the two sums first divided by 196 (a quotient of two means). The kernel reshapes
  the pixels to [64, 196, 2048], handles four images per grid point — per image, matrix products of the narrowed
  activations, the logistic, the two sums down the 196 pixels and their quotient —, writes a [64, 1, 2048] array
  and drops its unit axis. On the extended reals a change of float format is the identity, a matrix product is the sum
  of the products, the logistic is by definition the written-out quotient, and the quotient of the two means is the
  quotient of the two sums (the common positive factor cancels, a zero denominator included: PoolSpec.lean). So both
  results are one function `G` of the arguments (PoolSpec.lean): the reference's by ReferencePool.lean, the kernel's
  by KernelImage.lean, ImageValue.lean (one image at an index), KernelArray.lean (the blocks and the array) and
  KernelResult.lean (the run). No finiteness of the inputs is used.

  The three frames are the generated ones (the reference's is its generated run with the result dropped); the
  idealization rewrote nothing, so the `preserves` claim is `True`.
-/
import proofs.«123492_j27625229648173_2_alg».proof.Defs
import proofs.«123492_j27625229648173_2_alg».proof.Proof.Gen.Kernel
import proofs.«123492_j27625229648173_2_alg».proof.Proof.Gen.Kernel.Skeleton
import proofs.«123492_j27625229648173_2_alg».proof.Proof.Gen.Kernel.Launch
import proofs.«123492_j27625229648173_2_alg».proof.Proof.Gen.Kernel.Points
import proofs.«123492_j27625229648173_2_alg».proof.Proof.Gen.Kernel.Frame
import proofs.«123492_j27625229648173_2_alg».proof.Proof.Gen.KernelIdeal
import proofs.«123492_j27625229648173_2_alg».proof.Proof.Gen.KernelIdeal.Skeleton
import proofs.«123492_j27625229648173_2_alg».proof.Proof.Gen.KernelIdeal.Launch
import proofs.«123492_j27625229648173_2_alg».proof.Proof.Gen.KernelIdeal.Points
import proofs.«123492_j27625229648173_2_alg».proof.Proof.Gen.KernelIdeal.Frame
import proofs.«123492_j27625229648173_2_alg».proof.Proof.Gen.ReferenceIdeal
import proofs.«123492_j27625229648173_2_alg».proof.Proof.Gen.ReferenceIdeal.Run
import proofs.«123492_j27625229648173_2_alg».proof.Proof.Gen.ReferenceIdeal.Read
import proofs.«123492_j27625229648173_2_alg».proof.Proof.Gen.Pre_finite_inputs
import proofs.«123492_j27625229648173_2_alg».proof.Proof.KernelResult
import proofs.«123492_j27625229648173_2_alg».proof.Proof.ReferencePool
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the pooled array `G` of the arguments. -/
theorem algebraic : Cert.algebraic_KernelIdeal_ReferenceIdeal := by
  intro m ρ m' ρ' _ hagree
  refine ⟨fun c => Cert.AttnPool.G (Cert.AttnPool.KernelRun.argParams m c)
      (m ((c : Thread Cert.KernelIdeal.nD Cert.KernelIdeal.τ).loc Cert.KernelIdeal.main_arg0)),
    Cert.AttnPool.KernelRun.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6, a7, a8⟩ := hagree c
  rw [(h c).1, Cert.ReferenceIdeal.Read.val_main_v34_eq, Cert.AttnPool.Reference.reference_eq,
    a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
